-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x64 .f32) (main_arg1 : IVec S2x1600000 32) (main_arg2 : FVec F S64x64 .f32) (main_arg3 : FVec F S64 .f32) (main_arg4 : FVec F S64x64 .f32) (main_arg5 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S5000x64 : Shape := ⟨2, ![5000, 64]⟩
abbrev S5000x1 : Shape := ⟨2, ![5000, 1]⟩
abbrev S1600000x64 : Shape := ⟨2, ![1600000, 64]⟩
abbrev S1x64 : Shape := ⟨2, ![1, 64]⟩

abbrev nBuf : Space → Nat
  | .hbm => 78
  | .vmem => 32
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S100000, .f32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S_, .f32⟩
  | .hbm, ⟨21, _⟩ => ⟨S1600000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000, .f32⟩
  | .hbm, ⟨30, _⟩ => ⟨S100000x1, .f32⟩
  | .hbm, ⟨31, _⟩ => ⟨S100000x64, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000x64, .f32⟩
  | .hbm, ⟨41, _⟩ => ⟨S_, .f32⟩
  | .hbm, ⟨42, _⟩ => ⟨S100000x64, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S100000x64, .f32⟩
  | .hbm, ⟨52, _⟩ => ⟨S100000x1, .f32⟩
  | .hbm, ⟨53, _⟩ => ⟨S100000x64, .f32⟩
  | .hbm, ⟨54, _⟩ => ⟨S100000x1, .f32⟩
  | .hbm, ⟨55, _⟩ => ⟨S100000x64, .f32⟩
  | .hbm, ⟨56, _⟩ => ⟨S_, .i32⟩
  | .hbm, ⟨57, _⟩ => ⟨S1600000, .i32⟩
  | .hbm, ⟨58, _⟩ => ⟨S1600000, .i1⟩
  | .hbm, ⟨59, _⟩ => ⟨S_, .i32⟩
  | .hbm, ⟨60, _⟩ => ⟨S1600000, .i32⟩
  | .hbm, ⟨61, _⟩ => ⟨S1600000, .i32⟩
  | .hbm, ⟨62, _⟩ => ⟨S1600000, .i32⟩
  | .hbm, ⟨63, _⟩ => ⟨S1600000x1, .i32⟩
  | .hbm, ⟨64, _⟩ => ⟨S1600000x64, .f32⟩
  | .hbm, ⟨65, _⟩ => ⟨S_, .f32⟩
  | .hbm, ⟨66, _⟩ => ⟨S100000x64, .f32⟩
  | .hbm, ⟨67, _⟩ => ⟨S_, .i32⟩
  | .hbm, ⟨68, _⟩ => ⟨S1600000, .i32⟩
  | .hbm, ⟨69, _⟩ => ⟨S1600000, .i1⟩
  | .hbm, ⟨70, _⟩ => ⟨S_, .i32⟩
  | .hbm, ⟨71, _⟩ => ⟨S1600000, .i32⟩
  | .hbm, ⟨72, _⟩ => ⟨S1600000, .i32⟩
  | .hbm, ⟨73, _⟩ => ⟨S1600000, .i32⟩
  | .hbm, ⟨74, _⟩ => ⟨S1600000x1, .i32⟩
  | .hbm, ⟨75, _⟩ => ⟨S100000x64, .f32⟩
  | .hbm, ⟨76, _⟩ => ⟨S100000x1, .f32⟩
  | .hbm, ⟨77, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x1, .f32⟩
  | .local _ .vmem, ⟨4, _⟩ => ⟨S5000x1, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x1, .f32⟩
  | .local _ .vmem, ⟨12, _⟩ => ⟨S5000x1, .f32⟩
  | .local _ .vmem, ⟨13, _⟩ => ⟨S64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S64x64, .f32⟩
  | .local _ .vmem, ⟨19, _⟩ => ⟨S5000x1, .f32⟩
  | .local _ .vmem, ⟨20, _⟩ => ⟨S5000x1, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x1, .f32⟩
  | .local _ .vmem, ⟨28, _⟩ => ⟨S5000x1, .f32⟩
  | .local _ .vmem, ⟨29, _⟩ => ⟨S64, .f32⟩
  | .local _ .vmem, ⟨30, _⟩ => ⟨S5000x64, .f32⟩
  | .local _ .vmem, ⟨31, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_c_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_6 : Ref sig .tc := ⟨.hbm, 41, rfl⟩
abbrev main_v27 : Ref sig .tc := ⟨.hbm, 42, rfl⟩
abbrev main_c_7 : Ref sig .tc := ⟨.hbm, 43, rfl⟩
abbrev main_v28 : Ref sig .tc := ⟨.hbm, 44, rfl⟩
abbrev main_v29 : Ref sig .tc := ⟨.hbm, 45, rfl⟩
abbrev main_c_8 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_c_9 : Ref sig .tc := ⟨.hbm, 56, rfl⟩
abbrev main_v39 : Ref sig .tc := ⟨.hbm, 57, rfl⟩
abbrev main_v40 : Ref sig .tc := ⟨.hbm, 58, rfl⟩
abbrev main_c_10 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_11 : Ref sig .tc := ⟨.hbm, 65, rfl⟩
abbrev main_v46 : Ref sig .tc := ⟨.hbm, 66, rfl⟩
abbrev main_c_12 : Ref sig .tc := ⟨.hbm, 67, rfl⟩
abbrev main_v47 : Ref sig .tc := ⟨.hbm, 68, rfl⟩
abbrev main_v48 : Ref sig .tc := ⟨.hbm, 69, rfl⟩
abbrev main_c_13 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg3_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg2_1 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg4_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem2_1 : DmaSem sig := 20
abbrev cc2_sem3_0 : DmaSem sig := 21
abbrev cc2_sem3_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem2_1 : DmaSem sig := 28
abbrev cc3_sem3_0 : DmaSem sig := 29
abbrev cc3_sem4_0 : DmaSem sig := 30
abbrev cc3_sem4_1 : DmaSem sig := 31

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  shapeCasts_S100000_S100000x1 : S100000.ShapeCasts S100000x1
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  bcast_S_S100000x64 : S_.BroadcastsInDim S100000x64 (![] : Fin 0 → Fin S100000x64.rank)
  shapeCasts_S5000x64_S5000x64 : S5000x64.ShapeCasts S5000x64
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  scatter_S100000_S1600000x1_S1600000_n_0_0_1_wf : ScatterDims.WF S100000 S1600000x1 S1600000 [] [0] [0] 1
  dot_S5000x64_S64x64_S5000x64_1_0_0_1_n_n_wf : DotDims.WF S5000x64 S64x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .f32 = 32 ∨ (Rect.block (s := S100000x64) S5000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64.size a ≤ S64.size a
  hwx3_3 : ∀ i : grid3.Coords, EltTy.bits .f32 = 32 ∨ (Rect.block (s := S64) S64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x64.size a ≤ S100000x64.size a
  hwx3_4 : ∀ i : grid3.Coords, EltTy.bits .f32 = 32 ∨ (Rect.block (s := S100000x64) S5000x64.size (cc3_transform_4 i) (hinb3_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v18) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v34) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v35) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v36) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v36) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v37) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v38) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v53) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v38) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v54) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg5) S64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v55) S5000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩

abbrev nBuf : Space → Nat
  | .hbm => 149
  | .vmem => 0
  | .smem => 0
  | _ => 0

abbrev hbmTy0_0 (i : Nat) : BufTy := match i % 128 with
  | 0 => ⟨S100000x64, .f32⟩
  | 1 => ⟨S2x1600000, .i32⟩
  | 2 => ⟨S64x64, .f32⟩
  | 3 => ⟨S64, .f32⟩
  | 4 => ⟨S64x64, .f32⟩
  | 5 => ⟨S64, .f32⟩
  | 6 => ⟨S100000x64, .f32⟩
  | 7 => ⟨S100000, .i32⟩
  | 8 => ⟨S1x1600000, .i32⟩
  | 9 => ⟨S1600000, .i32⟩
  | 10 => ⟨S1700000, .i32⟩
  | 11 => ⟨S1x1600000, .i32⟩
  | 12 => ⟨S1600000, .i32⟩
  | 13 => ⟨S1700000, .i32⟩
  | 14 => ⟨S_, .f32⟩
  | 15 => ⟨S100000, .f32⟩
  | 16 => ⟨S_, .i32⟩
  | 17 => ⟨S1700000, .i32⟩
  | 18 => ⟨S1700000, .i1⟩
  | 19 => ⟨S_, .i32⟩
  | 20 => ⟨S1700000, .i32⟩
  | 21 => ⟨S1700000, .i32⟩
  | 22 => ⟨S1700000, .i32⟩
  | 23 => ⟨S1700000x1, .i32⟩
  | 24 => ⟨S_, .f32⟩
  | 25 => ⟨S1700000, .f32⟩
  | 26 => ⟨S100000, .f32⟩
  | 27 => ⟨S_, .f32⟩
  | 28 => ⟨S100000, .f32⟩
  | 29 => ⟨S100000, .f32⟩
  | 30 => ⟨S100000, .f32⟩
  | 31 => ⟨S_, .i32⟩
  | 32 => ⟨S1700000, .i32⟩
  | 33 => ⟨S1700000, .i1⟩
  | 34 => ⟨S_, .i32⟩
  | 35 => ⟨S1700000, .i32⟩
  | 36 => ⟨S1700000, .i32⟩
  | 37 => ⟨S1700000, .i32⟩
  | 38 => ⟨S1700000x1, .i32⟩
  | 39 => ⟨S1700000, .f32⟩
  | 40 => ⟨S_, .i32⟩
  | 41 => ⟨S1700000, .i32⟩
  | 42 => ⟨S1700000, .i1⟩
  | 43 => ⟨S_, .i32⟩
  | 44 => ⟨S1700000, .i32⟩
  | 45 => ⟨S1700000, .i32⟩
  | 46 => ⟨S1700000, .i32⟩
  | 47 => ⟨S1700000x1, .i32⟩
  | 48 => ⟨S1700000, .f32⟩
  | 49 => ⟨S1700000, .f32⟩
  | 50 => ⟨S_, .i32⟩
  | 51 => ⟨S1700000, .i32⟩
  | 52 => ⟨S1700000, .i1⟩
  | 53 => ⟨S_, .i32⟩
  | 54 => ⟨S1700000, .i32⟩
  | 55 => ⟨S1700000, .i32⟩
  | 56 => ⟨S1700000, .i32⟩
  | 57 => ⟨S1700000x1, .i32⟩
  | 58 => ⟨S1700000x64, .f32⟩
  | 59 => ⟨S1700000x1, .f32⟩
  | 60 => ⟨S1700000x64, .f32⟩
  | 61 => ⟨S1700000x64, .f32⟩
  | 62 => ⟨S_, .f32⟩
  | 63 => ⟨S100000x64, .f32⟩
  | 64 => ⟨S_, .i32⟩
  | 65 => ⟨S1700000, .i32⟩
  | 66 => ⟨S1700000, .i1⟩
  | 67 => ⟨S_, .i32⟩
  | 68 => ⟨S1700000, .i32⟩
  | 69 => ⟨S1700000, .i32⟩
  | 70 => ⟨S1700000, .i32⟩
  | 71 => ⟨S1700000x1, .i32⟩
  | 72 => ⟨S100000x64, .f32⟩
  | 73 => ⟨S1x64, .f32⟩
  | 74 => ⟨S100000x64, .f32⟩
  | 75 => ⟨S100000x64, .f32⟩
  | 76 => ⟨S_, .f32⟩
  | 77 => ⟨S100000x64, .f32⟩
  | 78 => ⟨S100000x64, .f32⟩
  | 79 => ⟨S100000x64, .f32⟩
  | 80 => ⟨S100000, .i32⟩
  | 81 => ⟨S1x1600000, .i32⟩
  | 82 => ⟨S1600000, .i32⟩
  | 83 => ⟨S1700000, .i32⟩
  | 84 => ⟨S1x1600000, .i32⟩
  | 85 => ⟨S1600000, .i32⟩
  | 86 => ⟨S1700000, .i32⟩
  | 87 => ⟨S_, .f32⟩
  | 88 => ⟨S100000, .f32⟩
  | 89 => ⟨S_, .i32⟩
  | 90 => ⟨S1700000, .i32⟩
  | 91 => ⟨S1700000, .i1⟩
  | 92 => ⟨S_, .i32⟩
  | 93 => ⟨S1700000, .i32⟩
  | 94 => ⟨S1700000, .i32⟩
  | 95 => ⟨S1700000, .i32⟩
  | 96 => ⟨S1700000x1, .i32⟩
  | 97 => ⟨S_, .f32⟩
  | 98 => ⟨S1700000, .f32⟩
  | 99 => ⟨S100000, .f32⟩
  | 100 => ⟨S_, .f32⟩
  | 101 => ⟨S100000, .f32⟩
  | 102 => ⟨S100000, .f32⟩
  | 103 => ⟨S100000, .f32⟩
  | 104 => ⟨S_, .i32⟩
  | 105 => ⟨S1700000, .i32⟩
  | 106 => ⟨S1700000, .i1⟩
  | 107 => ⟨S_, .i32⟩
  | 108 => ⟨S1700000, .i32⟩
  | 109 => ⟨S1700000, .i32⟩
  | 110 => ⟨S1700000, .i32⟩
  | 111 => ⟨S1700000x1, .i32⟩
  | 112 => ⟨S1700000, .f32⟩
  | 113 => ⟨S_, .i32⟩
  | 114 => ⟨S1700000, .i32⟩
  | 115 => ⟨S1700000, .i1⟩
  | 116 => ⟨S_, .i32⟩
  | 117 => ⟨S1700000, .i32⟩
  | 118 => ⟨S1700000, .i32⟩
  | 119 => ⟨S1700000, .i32⟩
  | 120 => ⟨S1700000x1, .i32⟩
  | 121 => ⟨S1700000, .f32⟩
  | 122 => ⟨S1700000, .f32⟩
  | 123 => ⟨S_, .i32⟩
  | 124 => ⟨S1700000, .i32⟩
  | 125 => ⟨S1700000, .i1⟩
  | 126 => ⟨S_, .i32⟩
  | 127 => ⟨S1700000, .i32⟩
  | _ => ⟨S100000x64, .f32⟩

abbrev hbmTy0_1 (i : Nat) : BufTy := match i % 128 with
  | 0 => ⟨S1700000, .i32⟩
  | 1 => ⟨S1700000, .i32⟩
  | 2 => ⟨S1700000x1, .i32⟩
  | 3 => ⟨S1700000x64, .f32⟩
  | 4 => ⟨S1700000x1, .f32⟩
  | 5 => ⟨S1700000x64, .f32⟩
  | 6 => ⟨S1700000x64, .f32⟩
  | 7 => ⟨S_, .f32⟩
  | 8 => ⟨S100000x64, .f32⟩
  | 9 => ⟨S_, .i32⟩
  | 10 => ⟨S1700000, .i32⟩
  | 11 => ⟨S1700000, .i1⟩
  | 12 => ⟨S_, .i32⟩
  | 13 => ⟨S1700000, .i32⟩
  | 14 => ⟨S1700000, .i32⟩
  | 15 => ⟨S1700000, .i32⟩
  | 16 => ⟨S1700000x1, .i32⟩
  | 17 => ⟨S100000x64, .f32⟩
  | 18 => ⟨S1x64, .f32⟩
  | 19 => ⟨S100000x64, .f32⟩
  | 20 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_c : Ref sig .tc := ⟨.hbm, 16, rfl⟩
abbrev main_v9 : Ref sig .tc := ⟨.hbm, 17, rfl⟩
abbrev main_v10 : Ref sig .tc := ⟨.hbm, 18, rfl⟩
abbrev main_c_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_c_7 : Ref sig .tc := ⟨.hbm, 50, rfl⟩
abbrev main_v35 : Ref sig .tc := ⟨.hbm, 51, rfl⟩
abbrev main_v36 : Ref sig .tc := ⟨.hbm, 52, rfl⟩
abbrev main_c_8 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_9 : Ref sig .tc := ⟨.hbm, 62, rfl⟩
abbrev main_v45 : Ref sig .tc := ⟨.hbm, 63, rfl⟩
abbrev main_c_10 : Ref sig .tc := ⟨.hbm, 64, rfl⟩
abbrev main_v46 : Ref sig .tc := ⟨.hbm, 65, rfl⟩
abbrev main_v47 : Ref sig .tc := ⟨.hbm, 66, rfl⟩
abbrev main_c_11 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_call0_cst : Ref sig .tc := ⟨.hbm, 76, rfl⟩
abbrev main_call0_v0 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_12 : Ref sig .tc := ⟨.hbm, 87, rfl⟩
abbrev main_v65 : Ref sig .tc := ⟨.hbm, 88, rfl⟩
abbrev main_c_13 : Ref sig .tc := ⟨.hbm, 89, rfl⟩
abbrev main_v66 : Ref sig .tc := ⟨.hbm, 90, rfl⟩
abbrev main_v67 : Ref sig .tc := ⟨.hbm, 91, rfl⟩
abbrev main_c_14 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_cst_15 : Ref sig .tc := ⟨.hbm, 97, rfl⟩
abbrev main_v72 : Ref sig .tc := ⟨.hbm, 98, rfl⟩
abbrev main_v73 : Ref sig .tc := ⟨.hbm, 99, rfl⟩
abbrev main_cst_16 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_c_17 : Ref sig .tc := ⟨.hbm, 104, rfl⟩
abbrev main_v77 : Ref sig .tc := ⟨.hbm, 105, rfl⟩
abbrev main_v78 : Ref sig .tc := ⟨.hbm, 106, rfl⟩
abbrev main_c_18 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_c_19 : Ref sig .tc := ⟨.hbm, 113, rfl⟩
abbrev main_v84 : Ref sig .tc := ⟨.hbm, 114, rfl⟩
abbrev main_v85 : Ref sig .tc := ⟨.hbm, 115, rfl⟩
abbrev main_c_20 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_c_21 : Ref sig .tc := ⟨.hbm, 123, rfl⟩
abbrev main_v92 : Ref sig .tc := ⟨.hbm, 124, rfl⟩
abbrev main_v93 : Ref sig .tc := ⟨.hbm, 125, rfl⟩
abbrev main_c_22 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_cst_23 : Ref sig .tc := ⟨.hbm, 135, rfl⟩
abbrev main_v102 : Ref sig .tc := ⟨.hbm, 136, rfl⟩
abbrev main_c_24 : Ref sig .tc := ⟨.hbm, 137, rfl⟩
abbrev main_v103 : Ref sig .tc := ⟨.hbm, 138, rfl⟩
abbrev main_v104 : Ref sig .tc := ⟨.hbm, 139, rfl⟩
abbrev main_c_25 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S_S1700000 : S_.BroadcastsInDim S1700000 (![] : Fin 0 → Fin S1700000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x64_S64x64_S100000x64_1_0_0_1_n_n_wf : DotDims.WF S100000x64 S64x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.KernelRun.lean ====
/-
  The idealized kernel program's run with its RESULT NAMED.

  The program is four pipelined regions among stretches of host operations.  Its generated frame certificate folds the
  buffers' contents through the segments: after the last region every unscoped buffer holds `Gen.W8`, the fold's last
  stage, and the frame theorem reads only the argument arrays out of it.  Here the same launch is read at the result
  buffer as well: every weakly fair execution terminates with the result buffer at `Gen.W8 … main_v55` — what the last
  region's write-backs leave in its output array — and the argument arrays as launched.
-/
import proofs.«121169_j9388798509588_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution terminates, nothing faulting, with the result buffer at the last boundary's contents
    and every argument array as launched. -/
theorem run : θ_run defs (onTc (τ := τ) (main (F := F))) ⟨m, fun _ => 0, ρ⟩ (fun r => ∀ c : Dev nD,
      r.2.mem ((c.tc : Thread nD τ).loc main_v55) = W8 m ρ c (Proc.devRef .tc main_v55)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v55 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.Named

end
-- ==== Proof.LibPlainDot.lean ====
/-
  A plain matrix product read at an entry, at the ideal values.

  A kernel's `tpu.matmul` of an M×K by a K×N matrix (contract the left operand's columns against the right operand's rows,
  no batch axis) into the zero splat is, at the entry (a, b), the sum over the contracted coordinate c of
  `A (a, c) · B (c, b)`: no rounding, no chunk order. In particular an entry of the product reads only row `a` of the
  left operand — rows of the left operand that hold nothing meaningful spoil only their own rows of the product.
-/
import Idealize.ShloMosaic.Lib.ValueIdx
import Idealize.ShloMosaic.Lib.Pipeline.Value
import Idealize.ShloMosaic.PureOps.Ideal.Laws

noncomputable section

namespace Cert.PlainDot

open Idealize.ShloMosaic Idealize.ShloMosaic.ValueIdx

/-- A kernel's plain product of an M×K by a K×N matrix into the zero splat, read at an entry, is the sum over the
    contracted coordinate of the products of the entries. At the ideal values. -/
theorem matmul_zero_plain_apply {M K N : ℕ} {φ₁ φ₂ : FTy} (prec : Option ContractPrecision)
    (A : FVec Ideal ⟨2, ![M, K]⟩ φ₁) (B : FVec Ideal ⟨2, ![K, N]⟩ φ₂) (a : Fin M) (b : Fin N) :
    matmul (DotDims.plain M K N) prec A B (constant (F := Ideal) ⟨2, ![M, N]⟩ .f32 0x00000000#32) (ix2 a b)
      = ∑ c : Fin K, A (ix2 a c) * B (ix2 c b) := by
  show FloatOps.matmul _ prec A B _ (ix2 a b) = _
  rw [Ideal.matmul_constant_zero_apply, ← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

end Cert.PlainDot

end
-- ==== Proof.LibHostDot.lean ====
/-
  A host matrix product and a column broadcast read at an entry, at the ideal values.

  The host's `dot_general` of an M×K by a K×N matrix (contract the left operand's columns against the right operand's
  rows, no batch axis) is, at the entry (a, b), the sum over the contracted coordinate c of `A (a, c) · B (c, b)`: the
  same sum a kernel's plain product into a zero accumulator has. A column [a, 1] broadcast along its unit axis to
  [a, b] repeats the row's one entry.
-/
import Idealize.ShloMosaic.Lib.ValueIdx
import Idealize.ShloMosaic.Lib.Pipeline.Value
import Idealize.ShloMosaic.PureOps.Ideal.Laws

noncomputable section

namespace Cert.HostDot

open Idealize.ShloMosaic Idealize.ShloMosaic.ValueIdx

/-- The host's plain product of an M×K by a K×N matrix, read at an entry, is the sum over the contracted coordinate of
    the products of the entries. At the ideal values. -/
theorem dotGeneral_plain_apply {M K N : ℕ} {φ₁ φ₂ : FTy} (prec : Option ContractPrecision)
    (A : FVec Ideal ⟨2, ![M, K]⟩ φ₁) (B : FVec Ideal ⟨2, ![K, N]⟩ φ₂) (a : Fin M) (b : Fin N) :
    Host.dotGeneral (DotDims.plain M K N) prec A B (ix2 a b) = ∑ c : Fin K, A (ix2 a c) * B (ix2 c b) := by
  simp only [Host.dotGeneral]
  rw [Ideal.dotGeneral_apply, ← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

/-- A column [a, 1] broadcast along its unit axis to [a, b]: entry (p, q) is the column's entry at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Cert.HostDot

end
-- ==== Proof.LibDenseBias.lean ====
/-
  A dense layer's two steps read entry by entry on the extended reals, as a kernel spells them on a block of rows and as
  the host spells them on the whole array; any extents.

  The product.  A kernel multiplies a block of rows of the left matrix by the whole right matrix, both narrowed to bf16
  first (which changes nothing on the extended reals), into a zero accumulator; the host multiplies the whole matrices.
  Either way the entry (p, q) is the sum over k of A (p, k) · B (k, q) (dense_block_entry, dense_host_entry): an entry of the
  product reads one row of the left factor, so a block of rows of the product is the product of that block of rows.

  The bias step.  A kernel adds a one-row matrix [1, b], repeated down the rows of its block (row_down_entry), and may take
  the maximum with zero; the host adds the row repeated down all rows by broadcast_in_dim (row_down_host_entry) and takes
  the same maximum against the zero matrix.  Entry (p, q) is x (p, q) + row (0, q), or its maximum with 0
  (bias_block_entry, bias_relu_block_entry, bias_host_entry, bias_relu_host_entry).  A bias vector [b] laid as the row
  [1, b] by a reshape or by a broadcast_in_dim along the last axis is the same row (bias_row_eq).

  It imports this unit's copies of LibPlainDot.lean and LibHostDot.lean.
-/
import Idealize.ShloMosaic.Lib.ValueIdx
import Idealize.ShloMosaic.Lib.ValueLayout
import Idealize.ShloMosaic.Lib.Pipeline.Value
import Idealize.ShloMosaic.PureOps.Ideal.Laws
import proofs.«121169_j9388798509588_2_alg».proof.Proof.LibPlainDot
import proofs.«121169_j9388798509588_2_alg».proof.Proof.LibHostDot

noncomputable section

namespace Cert.Lib.DenseBias

open Idealize.ShloMosaic Idealize.ShloMosaic.ValueIdx

variable {M K N : ℕ}

/-- The kernel's product of a block of rows, both factors narrowed to bf16, into the zero accumulator: entry (p, q) is
    the sum over k of x0 (p, k) · x1 (k, q). -/
theorem dense_block_entry (h : FTy.bits .bf16 < FTy.bits .f32)
    (x0 : FVec Ideal ⟨2, ![M, K]⟩ .f32) (x1 : FVec Ideal ⟨2, ![K, N]⟩ .f32) (p : Fin M) (q : Fin N) :
    matmul (DotDims.plain M K N) none (truncf .bf16 x0 h) (truncf .bf16 x1 h)
        (constant (F := Ideal) ⟨2, ![M, N]⟩ .f32 0x00000000#32) (ix2 p q)
      = ∑ k : Fin K, x0 (ix2 p k) * x1 (ix2 k q) :=
  (Cert.PlainDot.matmul_zero_plain_apply none (truncf .bf16 x0 h) (truncf .bf16 x1 h) p q).trans
    (Finset.sum_congr rfl fun _ _ => rfl)

/-- The host's product of the whole matrices: entry (p, q) is the sum over k of A (p, k) · B (k, q). -/
theorem dense_host_entry (A : FVec Ideal ⟨2, ![M, K]⟩ .f32) (B : FVec Ideal ⟨2, ![K, N]⟩ .f32) (p : Fin M) (q : Fin N) :
    Host.dotGeneral (F := Ideal) (DotDims.plain M K N) none A B (ix2 p q) = ∑ k : Fin K, A (ix2 p k) * B (ix2 k q) :=
  Cert.HostDot.dotGeneral_plain_apply none A B p q

variable {a b : ℕ}

/-- A one-row matrix [1, b] repeated down a rows (the kernel's broadcast of its bias row): entry (p, q) is the row's
    entry q. -/
theorem row_down_entry {α : Type} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- The same repetition as the host spells it (broadcast_in_dim of [1, b] to [a, b] along both axes). -/
theorem row_down_host_entry {α : Type} (v : (⟨2, ![1, b]⟩ : Shape).Idx → α)
    (h : (⟨2, ![1, b]⟩ : Shape).BroadcastsInDim ⟨2, ![a, b]⟩ (![0, 1] : Fin 2 → Fin 2)) (p : Fin a) (q : Fin b) :
    broadcastInDim ⟨2, ![a, b]⟩ (![0, 1] : Fin 2 → Fin 2) h v (ix2 p q) = v (ix2 (0 : Fin 1) q) := by
  refine broadcastInDim_apply _ h v (ix2 p q) (ix2 (0 : Fin 1) q) fun ax => ?_
  match ax with
  | ⟨0, _⟩ => rfl
  | ⟨1, _⟩ =>
    show q.val = if b = 1 then 0 else q.val
    split
    · have := q.isLt; omega
    · rfl

/-- A bias vector [b] laid as a one-row matrix [1, b], by a reshape (the kernel's program) or by a broadcast_in_dim
    along the last axis (the reference's): the same row. -/
theorem bias_row_eq {α : Type} (x : (⟨1, ![b]⟩ : Shape).Idx → α)
    (h1 : (⟨1, ![b]⟩ : Shape).ShapeCasts ⟨2, ![1, b]⟩)
    (h2 : (⟨1, ![b]⟩ : Shape).BroadcastsInDim ⟨2, ![1, b]⟩ (![1] : Fin 1 → Fin 2)) :
    shapeCast ⟨2, ![1, b]⟩ x h1 = broadcastInDim ⟨2, ![1, b]⟩ (![1] : Fin 1 → Fin 2) h2 x := by
  funext j
  obtain ⟨u, q, rfl⟩ : ∃ (u : Fin 1) (q : Fin b), j = ix2 u q := ⟨j 0, j 1, eq_ix2 j⟩
  rw [shapeCast_a_1a_apply]
  refine (broadcastInDim_apply _ h2 x (ix2 u q) (ix1 q) fun ax => ?_).symm
  match ax with
  | ⟨0, _⟩ =>
    show q.val = if b = 1 then 0 else q.val
    split
    · have := q.isLt; omega
    · rfl

/-- The kernel's bias step on a block, with the maximum against zero: entry (p, q) is max (x0 (p, q) + x1 (0, q)) 0. -/
theorem bias_relu_block_entry (x0 : FVec Ideal ⟨2, ![a, b]⟩ .f32) (x1 : FVec Ideal ⟨2, ![1, b]⟩ .f32)
    (h0 : (⟨2, ![a, b]⟩ : Shape).ShapeCasts ⟨2, ![a, b]⟩) (h1 : (⟨2, ![1, b]⟩ : Shape).ShapeCasts ⟨2, ![1, b]⟩)
    (hb : (⟨2, ![1, b]⟩ : Shape).Broadcasts ⟨2, ![a, b]⟩) (p : Fin a) (q : Fin b) :
    maximumf (addf (shapeCast ⟨2, ![a, b]⟩ x0 h0) (broadcastTo ⟨2, ![a, b]⟩ (shapeCast ⟨2, ![1, b]⟩ x1 h1) hb))
        (broadcast ⟨2, ![a, b]⟩ (Scalar.ofBits (F := Ideal) .f32 0x00000000#32)) (ix2 p q)
      = max (x0 (ix2 p q) + x1 (ix2 (0 : Fin 1) q)) (Ideal.ofBits .f32 0x00000000#32) := by
  rw [maximumf_apply, addf_apply, shapeCast_self, shapeCast_self, row_down_entry]
  rfl

/-- The kernel's bias step on a block, second layer (no maximum): entry (p, q) is x0 (p, q) + x1 (0, q). -/
theorem bias_block_entry (x0 : FVec Ideal ⟨2, ![a, b]⟩ .f32) (x1 : FVec Ideal ⟨2, ![1, b]⟩ .f32)
    (h0 : (⟨2, ![a, b]⟩ : Shape).ShapeCasts ⟨2, ![a, b]⟩) (h1 : (⟨2, ![1, b]⟩ : Shape).ShapeCasts ⟨2, ![1, b]⟩)
    (hb : (⟨2, ![1, b]⟩ : Shape).Broadcasts ⟨2, ![a, b]⟩) (p : Fin a) (q : Fin b) :
    addf (shapeCast ⟨2, ![a, b]⟩ x0 h0) (broadcastTo ⟨2, ![a, b]⟩ (shapeCast ⟨2, ![1, b]⟩ x1 h1) hb) (ix2 p q)
      = x0 (ix2 p q) + x1 (ix2 (0 : Fin 1) q) := by
  rw [addf_apply, shapeCast_self, shapeCast_self, row_down_entry]

/-- The reference's bias step with the maximum against the zero matrix: entry (p, q) is max (X (p, q) + R (0, q)) 0. -/
theorem bias_relu_host_entry (X : FVec Ideal ⟨2, ![a, b]⟩ .f32) (R : FVec Ideal ⟨2, ![1, b]⟩ .f32)
    (hR : (⟨2, ![1, b]⟩ : Shape).BroadcastsInDim ⟨2, ![a, b]⟩ (![0, 1] : Fin 2 → Fin 2))
    (hz : (⟨0, ![]⟩ : Shape).BroadcastsInDim ⟨2, ![a, b]⟩ (![] : Fin 0 → Fin 2)) (p : Fin a) (q : Fin b) :
    maximumf (addf X (broadcastInDim ⟨2, ![a, b]⟩ (![0, 1] : Fin 2 → Fin 2) hR R))
        (broadcastInDim ⟨2, ![a, b]⟩ (![] : Fin 0 → Fin 2) hz (constant (F := Ideal) ⟨0, ![]⟩ .f32 0x00000000#32)) (ix2 p q)
      = max (X (ix2 p q) + R (ix2 (0 : Fin 1) q)) (Ideal.ofBits .f32 0x00000000#32) := by
  rw [maximumf_apply, addf_apply, row_down_host_entry]
  rfl

/-- The reference's bias step, second layer: entry (p, q) is X (p, q) + R (0, q). -/
theorem bias_host_entry (X : FVec Ideal ⟨2, ![a, b]⟩ .f32) (R : FVec Ideal ⟨2, ![1, b]⟩ .f32)
    (hR : (⟨2, ![1, b]⟩ : Shape).BroadcastsInDim ⟨2, ![a, b]⟩ (![0, 1] : Fin 2 → Fin 2)) (p : Fin a) (q : Fin b) :
    addf X (broadcastInDim ⟨2, ![a, b]⟩ (![0, 1] : Fin 2 → Fin 2) hR R) (ix2 p q)
      = X (ix2 p q) + R (ix2 (0 : Fin 1) q) := by
  rw [addf_apply, row_down_host_entry]

end Cert.Lib.DenseBias

end
-- ==== Proof.LibVecIx2.lean ====
/-
  Vector layout operations of a kernel body read at a rank-2 index built from its two coordinates: a block of a
  matrix (one column, one row, one entry), a column or a row broadcast over a matrix, an entry extracted as a scalar,
  a sum over the rows of a matrix, and a one-row matrix made from a vector. Each is stated in closed form (no side
  condition), so that a rewriting pass can push an index through a long chain of such operations.
-/
import Idealize.ShloMosaic.Lib.Pipeline.Value
import Idealize.ShloMosaic.Lib.ValueIdx
import Idealize.ShloMosaic.Lib.ValueLayout
import Idealize.ShloMosaic.PureOps.Ideal.Laws

noncomputable section

namespace Cert.Lib.VecIx2

open Idealize.ShloMosaic Idealize.ShloMosaic.ValueIdx

variable {α : Type}

theorem slices_lt0 {a b m n o0 o1 : ℕ} (h : (⟨2, ![a, b]⟩ : Shape).Slices ![o0, o1] ⟨2, ![m, n]⟩) (hm : 0 < m) : o0 < a := by
  obtain ⟨_, h2⟩ := h
  have := h2 (0 : Fin 2)
  have e : (![o0, o1] : Fin 2 → ℕ) 0 + m ≤ a := this
  have e' : o0 + m ≤ a := e
  omega

theorem slices_lt1 {a b m n o0 o1 : ℕ} (h : (⟨2, ![a, b]⟩ : Shape).Slices ![o0, o1] ⟨2, ![m, n]⟩) (hn : 0 < n) : o1 < b := by
  obtain ⟨_, h2⟩ := h
  have := h2 (1 : Fin 2)
  have e : (![o0, o1] : Fin 2 → ℕ) 1 + n ≤ b := this
  have e' : o1 + n ≤ b := e
  omega

/-- Column `o` of a matrix, as an [a, 1] block: entry (p, ·) is the matrix at (p, o). -/
theorem slice_col {a b : ℕ} (o : ℕ) (X : (⟨2, ![a, b]⟩ : Shape).Idx → α)
    (h : (⟨2, ![a, b]⟩ : Shape).Slices ![0, o] ⟨2, ![a, 1]⟩) (p : Fin a) (u : Fin 1) :
    extractStridedSlice ⟨2, ![a, 1]⟩ ![0, o] X h (ix2 p u) = X (ix2 p ⟨o, slices_lt1 h Nat.one_pos⟩) :=
  extractStridedSlice_apply _ _ _ _ _ (fun ax => by
    match ax with
    | ⟨0, _⟩ => exact (Nat.zero_add _).symm
    | ⟨1, _⟩ => show o = o + u.val; omega)

/-- Row `o` of a matrix, as a [1, b] block: entry (·, q) is the matrix at (o, q). -/
theorem slice_row {a b : ℕ} (o : ℕ) (X : (⟨2, ![a, b]⟩ : Shape).Idx → α)
    (h : (⟨2, ![a, b]⟩ : Shape).Slices ![o, 0] ⟨2, ![1, b]⟩) (u : Fin 1) (q : Fin b) :
    extractStridedSlice ⟨2, ![1, b]⟩ ![o, 0] X h (ix2 u q) = X (ix2 ⟨o, slices_lt0 h Nat.one_pos⟩ q) :=
  extractStridedSlice_apply _ _ _ _ _ (fun ax => by
    match ax with
    | ⟨0, _⟩ => show o = o + u.val; omega
    | ⟨1, _⟩ => exact (Nat.zero_add _).symm)

/-- Entry (o0, o1) of a matrix, as a [1, 1] block. -/
theorem slice_11 {a b : ℕ} (o0 o1 : ℕ) (X : (⟨2, ![a, b]⟩ : Shape).Idx → α)
    (h : (⟨2, ![a, b]⟩ : Shape).Slices ![o0, o1] ⟨2, ![1, 1]⟩) (u v : Fin 1) :
    extractStridedSlice ⟨2, ![1, 1]⟩ ![o0, o1] X h (ix2 u v)
      = X (ix2 ⟨o0, slices_lt0 h Nat.one_pos⟩ ⟨o1, slices_lt1 h Nat.one_pos⟩) :=
  extractStridedSlice_apply _ _ _ _ _ (fun ax => by
    match ax with
    | ⟨0, _⟩ => show o0 = o0 + u.val; omega
    | ⟨1, _⟩ => show o1 = o1 + v.val; omega)

/-- The one entry of a [1, 1] matrix extracted as a scalar. -/
theorem extractAt_11 (x : (⟨2, ![1, 1]⟩ : Shape).Idx → α) (h : ∀ a, (![0, 0] : Fin 2 → ℕ) a < (⟨2, ![1, 1]⟩ : Shape).size a) :
    extractAt ![0, 0] x h = x (ix2 (0 : Fin 1) (0 : Fin 1)) := by
  unfold extractAt
  refine congrArg x (funext fun a => ?_)
  match a with
  | ⟨0, _⟩ => rfl
  | ⟨1, _⟩ => rfl

/-- An [a, 1] column broadcast over [a, b]: entry (p, q) is the column at p. -/
theorem bcast_col {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A sum over the rows of an [a, b] matrix of extended reals, from a zero accumulator: entry q is the column's sum. -/
theorem reduce_rows {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = FKind.add.neutral .f32 hφ) (q : Fin b) :
    multiReduction .add [0] ⟨1, ![b]⟩ src 0x00000000#32 h hφ hacc (ix1 q) = ∑ k : Fin a, src (ix2 k q) := by
  refine (Ideal.multiReduction_add_single src 0x00000000#32 h hφ hacc (ix1 q)).trans ?_
  refine Finset.sum_congr rfl fun k _ => congrArg src (funext fun c => Fin.ext ?_)
  rw [h.lift_val]
  match c with
  | ⟨0, _⟩ => rfl
  | ⟨1, _⟩ => rfl

/-- The same sum, with the accumulator's neutrality stated on the words themselves (as a printed program states it). -/
theorem reduce_rows' {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = 0x00000000#32) (q : Fin b) :
    multiReduction .add [0] ⟨1, ![b]⟩ src 0x00000000#32 h hφ hacc (ix1 q) = ∑ k : Fin a, src (ix2 k q) :=
  reduce_rows src h hφ hacc q

end Cert.Lib.VecIx2

end
-- ==== Proof.LibLayout.lean ====
/-
  Layout operations read at an index, for the shapes a row-batched kernel meets: a stack [a, b, c] of b rows per
  member flattened to [a·b, c] and back (row p·b + n of the flat array is row n of member p), a per-member row [a, c]
  given a unit middle axis [a, 1, c] and broadcast over the b rows of its member, and a vector [a] stood up as a
  column [a, 1].  Row-major order: the position of (p, n, d) in [a, b, c] is (p·b + n)·c + d.
-/
import Idealize.ShloMosaic.Lib.Pipeline.Value
import Idealize.ShloMosaic.Lib.ValueIdx
import Idealize.ShloMosaic.Lib.ValueLayout

noncomputable section

namespace Cert.LibLayout

open Idealize.ShloMosaic Idealize.ShloMosaic.ValueIdx

variable {α : Type}

/-- [a, b, c] flattened to [m, c] with m = a·b: row r = p·b + n of the result is row n of member p. -/
theorem shapeCast_abc_mc_apply {a b c m : ℕ} (x : (⟨3, ![a, b, c]⟩ : Shape).Idx → α)
    (h : (⟨3, ![a, b, c]⟩ : Shape).ShapeCasts ⟨2, ![m, c]⟩) (r : Fin m) (p : Fin a) (n : Fin b) (d : Fin c)
    (hr : r.val = p.val * b + n.val) : shapeCast ⟨2, ![m, c]⟩ x h (ix2 r d) = x (ix3 p n d) :=
  shapeCast_apply x h _ _ (by
    rw [Shape.rowMajor_val_three, Shape.rowMajor_val_two]
    show (p.val * b + n.val) * c + d.val = r.val * c + d.val
    rw [hr])

/-- [m, c] with m = a·b split to [a, b, c]: row n of member p is row r = p·b + n of the operand. -/
theorem shapeCast_mc_abc_apply {a b c m : ℕ} (x : (⟨2, ![m, c]⟩ : Shape).Idx → α)
    (h : (⟨2, ![m, c]⟩ : Shape).ShapeCasts ⟨3, ![a, b, c]⟩) (r : Fin m) (p : Fin a) (n : Fin b) (d : Fin c)
    (hr : r.val = p.val * b + n.val) : shapeCast ⟨3, ![a, b, c]⟩ x h (ix3 p n d) = x (ix2 r d) :=
  shapeCast_apply x h _ _ (by
    rw [Shape.rowMajor_val_three, Shape.rowMajor_val_two]
    show r.val * c + d.val = (p.val * b + n.val) * c + d.val
    rw [hr])

/-- [a, c] given a unit middle axis [a, 1, c]: the entries are the same. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (d : Fin c) :
    shapeCast ⟨3, ![a, 1, c]⟩ x h (ix3 p u d) = x (ix2 p d) :=
  shapeCast_apply x h _ _ (by
    have hu : u.val = 0 := by omega
    rw [Shape.rowMajor_val_three, Shape.rowMajor_val_two]
    show p.val * c + d.val = (p.val * 1 + u.val) * c + d.val
    rw [hu, Nat.mul_one, Nat.add_zero])

/-- [a, 1, c] broadcast over the middle axis to [a, b, c]: every row n of member p is the member's one row. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (n : Fin b) (d : Fin c) :
    broadcastTo ⟨3, ![a, b, c]⟩ v h (ix3 p n d) = v (ix3 p (0 : Fin 1) d) := by
  refine broadcastTo_apply v h (ix3 p n d) (ix3 p (0 : Fin 1) d) fun ax => ?_
  match ax with
  | ⟨0, _⟩ =>
    show p.val = if a = 1 then 0 else p.val
    split
    · have := p.isLt; omega
    · rfl
  | ⟨1, _⟩ => rfl
  | ⟨2, _⟩ =>
    show d.val = if c = 1 then 0 else d.val
    split
    · have := d.isLt; omega
    · rfl

/-- A per-member row [a, c] given a unit middle axis and broadcast over its member's b rows: entry (p, n, d) is the
    member's entry (p, d). -/
theorem keep_apply {a b c : ℕ} (x : (⟨2, ![a, c]⟩ : Shape).Idx → α)
    (h1 : (⟨2, ![a, c]⟩ : Shape).ShapeCasts ⟨3, ![a, 1, c]⟩) (h2 : (⟨3, ![a, 1, c]⟩ : Shape).Broadcasts ⟨3, ![a, b, c]⟩)
    (p : Fin a) (n : Fin b) (d : Fin c) :
    broadcastTo ⟨3, ![a, b, c]⟩ (shapeCast ⟨3, ![a, 1, c]⟩ x h1) h2 (ix3 p n d) = x (ix2 p d) := by
  rw [broadcastTo_a1c_abc_apply, shapeCast_ac_a1c_apply]

/-- A vector [a] stood up as a column [a, 1]. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A bias vector [b] as a row [1, b] broadcast down a rows: entry (p, q) is the bias at q. -/
theorem bias_apply {a b : ℕ} (x : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (p : Fin a) (q : Fin b) :
    broadcastTo ⟨2, ![a, b]⟩ (shapeCast ⟨2, ![1, b]⟩ x h1) h2 (ix2 p q) = x (ix1 q) := by
  rw [broadcastTo_1b_ab_apply, shapeCast_a_1a_apply]

end Cert.LibLayout

end
-- ==== Proof.BlockValues.lean ====
/-
  What the four kernel bodies store, entry by entry, at the ideal values.

  Two bodies form a block of the scaled product: rows of the features (a block of 5000 nodes) times the whole 64×64
  weight matrix, each row then multiplied by its node's factor (a 5000×1 column).  The other two form a block of the
  layer's output: the aggregated rows plus the scaled rows, each row multiplied by its node's factor, plus the bias
  row — followed in the first layer by the maximum with zero.  A change of float format is the identity at the ideal
  values, and the matrix unit's product into a zero accumulator is the plain sum over the contracted coordinate.
-/
import proofs.«121169_j9388798509588_2_alg».proof.Proof.Gen.KernelIdeal.Skeleton
import proofs.«121169_j9388798509588_2_alg».proof.Proof.LibDenseBias
import proofs.«121169_j9388798509588_2_alg».proof.Proof.LibVecIx2
import proofs.«121169_j9388798509588_2_alg».proof.Proof.LibLayout

noncomputable section

namespace Cert.KernelIdeal.Blocks

open Cert.KernelIdeal Cert.KernelIdeal.Gen Idealize.ShloMosaic Idealize.ShloMosaic.ValueIdx

/-- First layer's scaled product at an entry: the row's product with the weights, times the row's factor. -/
theorem scaled_product_entry (x0 : Vec Ideal S5000x64 .f32) (x1 : Vec Ideal S64x64 .f32) (x2 : Vec Ideal S5000x1 .f32)
    (p : Fin 5000) (q : Fin 64) :
    k0_pay1 (F := Ideal) x0 x1 x2 (ix2 p q) = (∑ k : Fin 64, x0 (ix2 p k) * x1 (ix2 k q)) * x2 (ix2 p (0 : Fin 1)) := by
  unfold k0_pay1
  refine (mulf_apply _ _ _).trans ?_
  refine congrArg₂ (· * ·) (Cert.Lib.DenseBias.dense_block_entry _ x0 x1 p q) ?_
  refine (Cert.Lib.VecIx2.bcast_col _ _ p q).trans ?_
  rw [shapeCast_self]

/-- Second layer's scaled product at an entry. -/
theorem scaled_product_entry' (x0 : Vec Ideal S5000x64 .f32) (x1 : Vec Ideal S64x64 .f32) (x2 : Vec Ideal S5000x1 .f32)
    (p : Fin 5000) (q : Fin 64) :
    k2_pay1 (F := Ideal) x0 x1 x2 (ix2 p q) = (∑ k : Fin 64, x0 (ix2 p k) * x1 (ix2 k q)) * x2 (ix2 p (0 : Fin 1)) := by
  unfold k2_pay1
  refine (mulf_apply _ _ _).trans ?_
  refine congrArg₂ (· * ·) ?_ ?_
  · rw [shapeCast_self]
    exact Cert.Lib.DenseBias.dense_block_entry _ x0 x1 p q
  · refine (Cert.Lib.VecIx2.bcast_col _ _ p q).trans ?_
    rw [shapeCast_self]

/-- First layer's output block at an entry: (aggregated + scaled) · factor + bias, then the maximum with zero. -/
theorem post_relu_entry (x0 x1 : Vec Ideal S5000x64 .f32) (x2 : Vec Ideal S5000x1 .f32) (x3 : Vec Ideal S64 .f32)
    (p : Fin 5000) (q : Fin 64) :
    k1_pay1 (F := Ideal) x0 x1 x2 x3 (ix2 p q)
      = max ((x0 (ix2 p q) + x1 (ix2 p q)) * x2 (ix2 p (0 : Fin 1)) + x3 (ix1 q)) (Ideal.ofBits .f32 0x00000000#32) := by
  unfold k1_pay1
  refine (maximumf_apply _ _ _).trans ?_
  refine congrArg₂ max ?_ rfl
  refine (addf_apply _ _ _).trans ?_
  refine congrArg₂ (· + ·) ?_ (Cert.LibLayout.bias_apply x3 _ _ p q)
  refine (mulf_apply _ _ _).trans ?_
  refine congrArg₂ (· * ·) ?_ ?_
  · rw [shapeCast_self, shapeCast_self]; rfl
  · refine (Cert.Lib.VecIx2.bcast_col _ _ p q).trans ?_
    rw [shapeCast_self]

/-- Second layer's output block at an entry: (aggregated + scaled) · factor + bias. -/
theorem post_entry (x0 x1 : Vec Ideal S5000x64 .f32) (x2 : Vec Ideal S5000x1 .f32) (x3 : Vec Ideal S64 .f32)
    (p : Fin 5000) (q : Fin 64) :
    k3_pay1 (F := Ideal) x0 x1 x2 x3 (ix2 p q)
      = (x0 (ix2 p q) + x1 (ix2 p q)) * x2 (ix2 p (0 : Fin 1)) + x3 (ix1 q) := by
  unfold k3_pay1
  refine (addf_apply _ _ _).trans ?_
  refine congrArg₂ (· + ·) ?_ (Cert.LibLayout.bias_apply x3 _ _ p q)
  refine (mulf_apply _ _ _).trans ?_
  refine congrArg₂ (· * ·) ?_ ?_
  · rw [shapeCast_self, shapeCast_self]; rfl
  · refine (Cert.Lib.VecIx2.bcast_col _ _ p q).trans ?_
    rw [shapeCast_self]

end Cert.KernelIdeal.Blocks

end
-- ==== Proof.RegionValues.lean ====
/-
  What each of the four regions leaves in its output array, as one function of the arrays it finds.

  Every region runs its body over 20 grid points; point `t` reads block `t` (5000 rows) of the row-blocked operands
  and the whole of the small ones, and writes back block `t` of the output.  The blocks tile the 100000 rows, so the
  output array ends holding, row by row, the body's function of the operands: for the product regions each row's
  product with the weight matrix times the row's factor (`scaledProduct`), for the output regions (aggregated +
  scaled) · factor + bias, in the first layer followed by the maximum with zero (`postScale`, `postScaleRelu`).
-/
import proofs.«121169_j9388798509588_2_alg».proof.Proof.Gen.KernelIdeal.Frame
import proofs.«121169_j9388798509588_2_alg».proof.Proof.BlockValues
import Idealize.ShloMosaic.Lib.Pipeline.Value

set_option maxRecDepth 16384

noncomputable section

namespace Cert.KernelIdeal.Regions

open Cert.KernelIdeal Cert.KernelIdeal.Gen Cert.KernelIdeal.Blocks
open Idealize.ShloMosaic Idealize.ShloMosaic.TcCoe Idealize.ShloMosaic.ValueIdx
open Idealize.ShloMosaic.Pipeline (Dat Cfg Window)

theorem hz2 : (![0, 0] : Fin 2 → Nat) = fun _ => 0 := funext fun a => by fin_cases a <;> rfl
theorem hz1 : (![0] : Fin 1 → Nat) = fun _ => 0 := funext fun a => by fin_cases a; rfl

/-- Each row's product with the weight matrix, times the row's factor. -/
def scaledProduct (X : S100000x64.Idx → EReal) (W : S64x64.Idx → EReal) (D : S100000x1.Idx → EReal) : S100000x64.Idx → EReal :=
  fun i => (∑ k : Fin 64, X (ix2 ⟨(i 0).val, idx2_lt0 i⟩ k) * W (ix2 k ⟨(i 1).val, idx2_lt1 i⟩))
    * D (ix2 ⟨(i 0).val, idx2_lt0 i⟩ (0 : Fin 1))

/-- (aggregated + scaled) · factor + bias. -/
def postScale (A P : S100000x64.Idx → EReal) (D : S100000x1.Idx → EReal) (b : S64.Idx → EReal) : S100000x64.Idx → EReal :=
  fun i => (A i + P i) * D (ix2 ⟨(i 0).val, idx2_lt0 i⟩ (0 : Fin 1)) + b (ix1 ⟨(i 1).val, idx2_lt1 i⟩)

/-- The same followed by the maximum with zero. -/
def postScaleRelu (A P : S100000x64.Idx → EReal) (D : S100000x1.Idx → EReal) (b : S64.Idx → EReal) : S100000x64.Idx → EReal :=
  fun i => max (postScale A P D b i) (Ideal.ofBits .f32 0x00000000#32)

variable (V : (c : Dev nD) → (b : Ref sig .tc) → Buf (Elt Ideal) ((c : Thread nD τ).loc b))

/-! ## Region 0: the scaled product -/

/-- The printed block-index maps over the grid of 20 points: the feature, factor and output windows take block `t` of
    rows, the weight window its one block. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- What point `t` writes back is block `t` of the scaled product of the arrays the region finds. -/
theorem flushed0 (c : Dev nD) (t : Fin cfg0.N) :
    (dat0 (F := Ideal) V c).flushed 3 t = ((cfg0.win 3).blk t).view.read (Elt Ideal)
      (scaledProduct (V c main_arg0) (V c main_arg2) (V c main_v18)) := by
  show (cfg0.win 3).cut (grid0.coords t) ((dat0 (F := Ideal) V c).after 3 t) = _
  rw [after0_3]
  unfold out0_3
  rw [View.canon_unit_zero hz2]
  simp only [View.ld_unit_zero (S := S5000x64) hz2, View.ld_unit_zero (S := S64x64) hz2, View.ld_unit_zero (S := S5000x1) hz2]
  obtain ⟨e00, e01, e10, e11, e20, e21, e30, e31⟩ := idx_facts0 t
  funext j
  obtain ⟨p, q, rfl⟩ : ∃ (p : Fin 5000) (q : Fin 64), j = ix2 p q := ⟨j 0, j 1, eq_ix2 j⟩
  refine (scaled_product_entry _ _ _ p q).trans ?_
  have ht : t.val < 20 := t.isLt
  have hrow : ((((cfg0.win 3).blk t).view.emb (ix2 p q)) 0).val = t.val * 5000 + p.val := by
    show win0_3.index t (0 : Fin 2) * 5000 + 1 * p.val = _; omega
  have hcol : ((((cfg0.win 3).blk t).view.emb (ix2 p q)) 1).val = q.val := by
    show win0_3.index t (1 : Fin 2) * 64 + 1 * q.val = _; omega
  show _ = scaledProduct (V c main_arg0) (V c main_arg2) (V c main_v18) (((cfg0.win 3).blk t).view.emb (ix2 p q))
  unfold scaledProduct
  refine congrArg₂ (· * ·) (Finset.sum_congr rfl fun k _ => congrArg₂ (· * ·) ?_ ?_) ?_
  · show V c main_arg0 (((cfg0.win 0).blk t).view.emb (ix2 p k)) = V c main_arg0 _
    refine congrArg _ (funext fun a => Fin.ext ?_)
    match a with
    | ⟨0, _⟩ => show win0_0.index t (0 : Fin 2) * 5000 + 1 * p.val = ((((cfg0.win 3).blk t).view.emb (ix2 p q)) 0).val; omega
    | ⟨1, _⟩ => show win0_0.index t (1 : Fin 2) * 64 + 1 * k.val = k.val; omega
  · show V c main_arg2 (((cfg0.win 1).blk t).view.emb (ix2 k q)) = V c main_arg2 _
    refine congrArg _ (funext fun a => Fin.ext ?_)
    match a with
    | ⟨0, _⟩ => show win0_1.index t (0 : Fin 2) * 64 + 1 * k.val = k.val; omega
    | ⟨1, _⟩ => show win0_1.index t (1 : Fin 2) * 64 + 1 * q.val = ((((cfg0.win 3).blk t).view.emb (ix2 p q)) 1).val; omega
  · show V c main_v18 (((cfg0.win 2).blk t).view.emb (ix2 p (0 : Fin 1))) = V c main_v18 _
    refine congrArg _ (funext fun a => Fin.ext ?_)
    match a with
    | ⟨0, _⟩ => show win0_2.index t (0 : Fin 2) * 5000 + 1 * p.val = ((((cfg0.win 3).blk t).view.emb (ix2 p q)) 0).val; omega
    | ⟨1, _⟩ => show win0_2.index t (1 : Fin 2) * 1 + 1 * 0 = 0; omega

/-- An index of the output array is in point `t`'s block iff each coordinate is in the block's range. -/
theorem mem_blk0 (t : Fin cfg0.N) (i : S100000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v19).slice (win0_3.rect t)).set ↔ _
  rw [View.set_slice_whole, Rect.mem_set_unit]
  exact Iff.rfl

/-- Every row of the output array is in some point's block: row `r` in block `r / 5000`. -/
theorem cover0 (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  refine ⟨⟨(i 0).val / 5000, by show (i 0).val / 5000 < 20; omega⟩, flush0_3 _, ?_⟩
  rw [mem_blk0]
  obtain ⟨-, -, -, -, -, -, e30, e31⟩ := idx_facts0 ⟨(i 0).val / 5000, by show (i 0).val / 5000 < 20; omega⟩
  intro a
  match a with
  | ⟨0, _⟩ => show win0_3.index _ (0 : Fin 2) * 5000 ≤ (i 0).val ∧ (i 0).val < win0_3.index _ (0 : Fin 2) * 5000 + 5000; rw [e30]; show (i 0).val / 5000 * 5000 ≤ _ ∧ _ < (i 0).val / 5000 * 5000 + 5000; omega
  | ⟨1, _⟩ => show win0_3.index _ (1 : Fin 2) * 64 ≤ (i 1).val ∧ (i 1).val < win0_3.index _ (1 : Fin 2) * 64 + 64; rw [e31]; omega

/-- The region's output array after its last point: the scaled product of the arrays the region finds. -/
theorem value0 (c : Dev nD) :
    (dat0 (F := Ideal) V c).arrAt 3 cfg0.N = scaledProduct (V c main_arg0) (V c main_arg2) (V c main_v18) :=
  (dat0 (F := Ideal) V c).arrAt_eq_of_cover 3 _ (fun t _ => flushed0 V c t) (cover0)

/-! ## Region 1: the layer's output, with the maximum with zero -/

/-- The printed block-index maps over the grid of 20 points: the row-blocked windows take block `t`, the bias window its
    one block. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 1) = 0
    ∧ win1_4.index t (0 : Fin 2) = t.val ∧ win1_4.index t (1 : Fin 2) = 0 :=
  (by decide +kernel : ∀ t : Fin grid1.N, _)

/-- What point `t` writes back is block `t` of the layer's output of the arrays the region finds. -/
theorem flushed1 (c : Dev nD) (t : Fin cfg1.N) :
    (dat1 (F := Ideal) V c).flushed 4 t = ((cfg1.win 4).blk t).view.read (Elt Ideal)
      (postScaleRelu (V c main_v34) (V c main_v19) (V c main_v35) (V c main_arg3)) := by
  show (cfg1.win 4).cut (grid1.coords t) ((dat1 (F := Ideal) V c).after 4 t) = _
  rw [after1_4]
  unfold out1_4
  rw [View.canon_unit_zero hz2]
  simp only [View.ld_unit_zero (S := S5000x64) hz2, View.ld_unit_zero (S := S5000x1) hz2, View.ld_unit_zero (S := S64) hz1]
  obtain ⟨e00, e01, e10, e11, e20, e21, e30, e40, e41⟩ := idx_facts1 t
  funext j
  obtain ⟨p, q, rfl⟩ : ∃ (p : Fin 5000) (q : Fin 64), j = ix2 p q := ⟨j 0, j 1, eq_ix2 j⟩
  refine (post_relu_entry _ _ _ _ p q).trans ?_
  have ht : t.val < 20 := t.isLt
  have hrow : ((((cfg1.win 4).blk t).view.emb (ix2 p q)) 0).val = t.val * 5000 + p.val := by
    show win1_4.index t (0 : Fin 2) * 5000 + 1 * p.val = _; omega
  have hcol : ((((cfg1.win 4).blk t).view.emb (ix2 p q)) 1).val = q.val := by
    show win1_4.index t (1 : Fin 2) * 64 + 1 * q.val = _; omega
  show _ = postScaleRelu (V c main_v34) (V c main_v19) (V c main_v35) (V c main_arg3) (((cfg1.win 4).blk t).view.emb (ix2 p q))
  unfold postScaleRelu postScale
  refine congrArg₂ max (congrArg₂ (· + ·) (congrArg₂ (· * ·) (congrArg₂ (· + ·) ?_ ?_) ?_) ?_) rfl
  · show V c main_v34 (((cfg1.win 0).blk t).view.emb (ix2 p q)) = V c main_v34 (((cfg1.win 4).blk t).view.emb (ix2 p q))
    refine congrArg _ (funext fun a => Fin.ext ?_)
    match a with
    | ⟨0, _⟩ => show win1_0.index t (0 : Fin 2) * 5000 + 1 * p.val = win1_4.index t (0 : Fin 2) * 5000 + 1 * p.val; omega
    | ⟨1, _⟩ => show win1_0.index t (1 : Fin 2) * 64 + 1 * q.val = win1_4.index t (1 : Fin 2) * 64 + 1 * q.val; omega
  · show V c main_v19 (((cfg1.win 1).blk t).view.emb (ix2 p q)) = V c main_v19 (((cfg1.win 4).blk t).view.emb (ix2 p q))
    refine congrArg _ (funext fun a => Fin.ext ?_)
    match a with
    | ⟨0, _⟩ => show win1_1.index t (0 : Fin 2) * 5000 + 1 * p.val = win1_4.index t (0 : Fin 2) * 5000 + 1 * p.val; omega
    | ⟨1, _⟩ => show win1_1.index t (1 : Fin 2) * 64 + 1 * q.val = win1_4.index t (1 : Fin 2) * 64 + 1 * q.val; omega
  · show V c main_v35 (((cfg1.win 2).blk t).view.emb (ix2 p (0 : Fin 1))) = V c main_v35 _
    refine congrArg _ (funext fun a => Fin.ext ?_)
    match a with
    | ⟨0, _⟩ => show win1_2.index t (0 : Fin 2) * 5000 + 1 * p.val = ((((cfg1.win 4).blk t).view.emb (ix2 p q)) 0).val; omega
    | ⟨1, _⟩ => show win1_2.index t (1 : Fin 2) * 1 + 1 * 0 = 0; omega
  · show V c main_arg3 (((cfg1.win 3).blk t).view.emb (ix1 q)) = V c main_arg3 _
    refine congrArg _ (funext fun a => Fin.ext ?_)
    match a with
    | ⟨0, _⟩ => show win1_3.index t (0 : Fin 1) * 64 + 1 * q.val = ((((cfg1.win 4).blk t).view.emb (ix2 p q)) 1).val; omega

/-- An index of the output array is in point `t`'s block iff each coordinate is in the block's range. -/
theorem mem_blk1 (t : Fin cfg1.N) (i : S100000x64.Idx) :
    i ∈ ((cfg1.win 4).blk t).view.set ↔ ∀ a : Fin 2, win1_4.index t a * S5000x64.size a ≤ (i a).val ∧ (i a).val < win1_4.index t a * S5000x64.size a + S5000x64.size a := by
  show i ∈ ((View.whole main_v36).slice (win1_4.rect t)).set ↔ _
  rw [View.set_slice_whole, Rect.mem_set_unit]
  exact Iff.rfl

/-- Every row of the output array is in some point's block: row `r` in block `r / 5000`. -/
theorem cover1 (i : S100000x64.Idx) : ∃ t : Fin cfg1.N, (cfg1.win 4).flush t = true ∧ i ∈ ((cfg1.win 4).blk t).view.set := by
  have hi0 : (i 0).val < 100000 := (i 0).isLt
  have hi1 : (i 1).val < 64 := (i 1).isLt
  refine ⟨⟨(i 0).val / 5000, by show (i 0).val / 5000 < 20; omega⟩, flush1_4 _, ?_⟩
  rw [mem_blk1]
  obtain ⟨-, -, -, -, -, -, -, e40, e41⟩ := idx_facts1 ⟨(i 0).val / 5000, by show (i 0).val / 5000 < 20; omega⟩
  intro a
  match a with
  | ⟨0, _⟩ => show win1_4.index _ (0 : Fin 2) * 5000 ≤ (i 0).val ∧ (i 0).val < win1_4.index _ (0 : Fin 2) * 5000 + 5000; rw [e40]; show (i 0).val / 5000 * 5000 ≤ _ ∧ _ < (i 0).val / 5000 * 5000 + 5000; omega
  | ⟨1, _⟩ => show win1_4.index _ (1 : Fin 2) * 64 ≤ (i 1).val ∧ (i 1).val < win1_4.index _ (1 : Fin 2) * 64 + 64; rw [e41]; omega

/-- The region's output array after its last point: the layer's output of the arrays the region finds. -/
theorem value1 (c : Dev nD) :
    (dat1 (F := Ideal) V c).arrAt 4 cfg1.N = postScaleRelu (V c main_v34) (V c main_v19) (V c main_v35) (V c main_arg3) :=
  (dat1 (F := Ideal) V c).arrAt_eq_of_cover 4 _ (fun t _ => flushed1 V c t) (cover1)

/-! ## Region 2: the scaled product -/

/-- The printed block-index maps over the grid of 20 points: the feature, factor and output windows take block `t` of
    rows, the weight window its one block. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- What point `t` writes back is block `t` of the scaled product of the arrays the region finds. -/
theorem flushed2 (c : Dev nD) (t : Fin cfg2.N) :
    (dat2 (F := Ideal) V c).flushed 3 t = ((cfg2.win 3).blk t).view.read (Elt Ideal)
      (scaledProduct (V c main_v36) (V c main_arg4) (V c main_v37)) := by
  show (cfg2.win 3).cut (grid2.coords t) ((dat2 (F := Ideal) V c).after 3 t) = _
  rw [after2_3]
  unfold out2_3
  rw [View.canon_unit_zero hz2]
  simp only [View.ld_unit_zero (S := S5000x64) hz2, View.ld_unit_zero (S := S64x64) hz2, View.ld_unit_zero (S := S5000x1) hz2]
  obtain ⟨e00, e01, e10, e11, e20, e21, e30, e31⟩ := idx_facts2 t
  funext j
  obtain ⟨p, q, rfl⟩ : ∃ (p : Fin 5000) (q : Fin 64), j = ix2 p q := ⟨j 0, j 1, eq_ix2 j⟩
  refine (scaled_product_entry' _ _ _ p q).trans ?_
  have ht : t.val < 20 := t.isLt
  have hrow : ((((cfg2.win 3).blk t).view.emb (ix2 p q)) 0).val = t.val * 5000 + p.val := by
    show win2_3.index t (0 : Fin 2) * 5000 + 1 * p.val = _; omega
  have hcol : ((((cfg2.win 3).blk t).view.emb (ix2 p q)) 1).val = q.val := by
    show win2_3.index t (1 : Fin 2) * 64 + 1 * q.val = _; omega
  show _ = scaledProduct (V c main_v36) (V c main_arg4) (V c main_v37) (((cfg2.win 3).blk t).view.emb (ix2 p q))
  unfold scaledProduct
  refine congrArg₂ (· * ·) (Finset.sum_congr rfl fun k _ => congrArg₂ (· * ·) ?_ ?_) ?_
  · show V c main_v36 (((cfg2.win 0).blk t).view.emb (ix2 p k)) = V c main_v36 _
    refine congrArg _ (funext fun a => Fin.ext ?_)
    match a with
    | ⟨0, _⟩ => show win2_0.index t (0 : Fin 2) * 5000 + 1 * p.val = ((((cfg2.win 3).blk t).view.emb (ix2 p q)) 0).val; omega
    | ⟨1, _⟩ => show win2_0.index t (1 : Fin 2) * 64 + 1 * k.val = k.val; omega
  · show V c main_arg4 (((cfg2.win 1).blk t).view.emb (ix2 k q)) = V c main_arg4 _
    refine congrArg _ (funext fun a => Fin.ext ?_)
    match a with
    | ⟨0, _⟩ => show win2_1.index t (0 : Fin 2) * 64 + 1 * k.val = k.val; omega
    | ⟨1, _⟩ => show win2_1.index t (1 : Fin 2) * 64 + 1 * q.val = ((((cfg2.win 3).blk t).view.emb (ix2 p q)) 1).val; omega
  · show V c main_v37 (((cfg2.win 2).blk t).view.emb (ix2 p (0 : Fin 1))) = V c main_v37 _
    refine congrArg _ (funext fun a => Fin.ext ?_)
    match a with
    | ⟨0, _⟩ => show win2_2.index t (0 : Fin 2) * 5000 + 1 * p.val = ((((cfg2.win 3).blk t).view.emb (ix2 p q)) 0).val; omega
    | ⟨1, _⟩ => show win2_2.index t (1 : Fin 2) * 1 + 1 * 0 = 0; omega

/-- An index of the output array is in point `t`'s block iff each coordinate is in the block's range. -/
theorem mem_blk2 (t : Fin cfg2.N) (i : S100000x64.Idx) :
    i ∈ ((cfg2.win 3).blk t).view.set ↔ ∀ a : Fin 2, win2_3.index t a * S5000x64.size a ≤ (i a).val ∧ (i a).val < win2_3.index t a * S5000x64.size a + S5000x64.size a := by
  show i ∈ ((View.whole main_v38).slice (win2_3.rect t)).set ↔ _
  rw [View.set_slice_whole, Rect.mem_set_unit]
  exact Iff.rfl

/-- Every row of the output array is in some point's block: row `r` in block `r / 5000`. -/
theorem cover2 (i : S100000x64.Idx) : ∃ t : Fin cfg2.N, (cfg2.win 3).flush t = true ∧ i ∈ ((cfg2.win 3).blk t).view.set := by
  have hi0 : (i 0).val < 100000 := (i 0).isLt
  have hi1 : (i 1).val < 64 := (i 1).isLt
  refine ⟨⟨(i 0).val / 5000, by show (i 0).val / 5000 < 20; omega⟩, flush2_3 _, ?_⟩
  rw [mem_blk2]
  obtain ⟨-, -, -, -, -, -, e30, e31⟩ := idx_facts2 ⟨(i 0).val / 5000, by show (i 0).val / 5000 < 20; omega⟩
  intro a
  match a with
  | ⟨0, _⟩ => show win2_3.index _ (0 : Fin 2) * 5000 ≤ (i 0).val ∧ (i 0).val < win2_3.index _ (0 : Fin 2) * 5000 + 5000; rw [e30]; show (i 0).val / 5000 * 5000 ≤ _ ∧ _ < (i 0).val / 5000 * 5000 + 5000; omega
  | ⟨1, _⟩ => show win2_3.index _ (1 : Fin 2) * 64 ≤ (i 1).val ∧ (i 1).val < win2_3.index _ (1 : Fin 2) * 64 + 64; rw [e31]; omega

/-- The region's output array after its last point: the scaled product of the arrays the region finds. -/
theorem value2 (c : Dev nD) :
    (dat2 (F := Ideal) V c).arrAt 3 cfg2.N = scaledProduct (V c main_v36) (V c main_arg4) (V c main_v37) :=
  (dat2 (F := Ideal) V c).arrAt_eq_of_cover 3 _ (fun t _ => flushed2 V c t) (cover2)

/-! ## Region 3: the layer's output -/

/-- The printed block-index maps over the grid of 20 points: the row-blocked windows take block `t`, the bias window its
    one block. -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 1) = 0
    ∧ win3_4.index t (0 : Fin 2) = t.val ∧ win3_4.index t (1 : Fin 2) = 0 :=
  (by decide +kernel : ∀ t : Fin grid3.N, _)

/-- What point `t` writes back is block `t` of the layer's output of the arrays the region finds. -/
theorem flushed3 (c : Dev nD) (t : Fin cfg3.N) :
    (dat3 (F := Ideal) V c).flushed 4 t = ((cfg3.win 4).blk t).view.read (Elt Ideal)
      (postScale (V c main_v53) (V c main_v38) (V c main_v54) (V c main_arg5)) := by
  show (cfg3.win 4).cut (grid3.coords t) ((dat3 (F := Ideal) V c).after 4 t) = _
  rw [after3_4]
  unfold out3_4
  rw [View.canon_unit_zero hz2]
  simp only [View.ld_unit_zero (S := S5000x64) hz2, View.ld_unit_zero (S := S5000x1) hz2, View.ld_unit_zero (S := S64) hz1]
  obtain ⟨e00, e01, e10, e11, e20, e21, e30, e40, e41⟩ := idx_facts3 t
  funext j
  obtain ⟨p, q, rfl⟩ : ∃ (p : Fin 5000) (q : Fin 64), j = ix2 p q := ⟨j 0, j 1, eq_ix2 j⟩
  refine (post_entry _ _ _ _ p q).trans ?_
  have ht : t.val < 20 := t.isLt
  have hrow : ((((cfg3.win 4).blk t).view.emb (ix2 p q)) 0).val = t.val * 5000 + p.val := by
    show win3_4.index t (0 : Fin 2) * 5000 + 1 * p.val = _; omega
  have hcol : ((((cfg3.win 4).blk t).view.emb (ix2 p q)) 1).val = q.val := by
    show win3_4.index t (1 : Fin 2) * 64 + 1 * q.val = _; omega
  show _ = postScale (V c main_v53) (V c main_v38) (V c main_v54) (V c main_arg5) (((cfg3.win 4).blk t).view.emb (ix2 p q))
  unfold postScale
  refine (congrArg₂ (· + ·) (congrArg₂ (· * ·) (congrArg₂ (· + ·) ?_ ?_) ?_) ?_)
  · show V c main_v53 (((cfg3.win 0).blk t).view.emb (ix2 p q)) = V c main_v53 (((cfg3.win 4).blk t).view.emb (ix2 p q))
    refine congrArg _ (funext fun a => Fin.ext ?_)
    match a with
    | ⟨0, _⟩ => show win3_0.index t (0 : Fin 2) * 5000 + 1 * p.val = win3_4.index t (0 : Fin 2) * 5000 + 1 * p.val; omega
    | ⟨1, _⟩ => show win3_0.index t (1 : Fin 2) * 64 + 1 * q.val = win3_4.index t (1 : Fin 2) * 64 + 1 * q.val; omega
  · show V c main_v38 (((cfg3.win 1).blk t).view.emb (ix2 p q)) = V c main_v38 (((cfg3.win 4).blk t).view.emb (ix2 p q))
    refine congrArg _ (funext fun a => Fin.ext ?_)
    match a with
    | ⟨0, _⟩ => show win3_1.index t (0 : Fin 2) * 5000 + 1 * p.val = win3_4.index t (0 : Fin 2) * 5000 + 1 * p.val; omega
    | ⟨1, _⟩ => show win3_1.index t (1 : Fin 2) * 64 + 1 * q.val = win3_4.index t (1 : Fin 2) * 64 + 1 * q.val; omega
  · show V c main_v54 (((cfg3.win 2).blk t).view.emb (ix2 p (0 : Fin 1))) = V c main_v54 _
    refine congrArg _ (funext fun a => Fin.ext ?_)
    match a with
    | ⟨0, _⟩ => show win3_2.index t (0 : Fin 2) * 5000 + 1 * p.val = ((((cfg3.win 4).blk t).view.emb (ix2 p q)) 0).val; omega
    | ⟨1, _⟩ => show win3_2.index t (1 : Fin 2) * 1 + 1 * 0 = 0; omega
  · show V c main_arg5 (((cfg3.win 3).blk t).view.emb (ix1 q)) = V c main_arg5 _
    refine congrArg _ (funext fun a => Fin.ext ?_)
    match a with
    | ⟨0, _⟩ => show win3_3.index t (0 : Fin 1) * 64 + 1 * q.val = ((((cfg3.win 4).blk t).view.emb (ix2 p q)) 1).val; omega

/-- An index of the output array is in point `t`'s block iff each coordinate is in the block's range. -/
theorem mem_blk3 (t : Fin cfg3.N) (i : S100000x64.Idx) :
    i ∈ ((cfg3.win 4).blk t).view.set ↔ ∀ a : Fin 2, win3_4.index t a * S5000x64.size a ≤ (i a).val ∧ (i a).val < win3_4.index t a * S5000x64.size a + S5000x64.size a := by
  show i ∈ ((View.whole main_v55).slice (win3_4.rect t)).set ↔ _
  rw [View.set_slice_whole, Rect.mem_set_unit]
  exact Iff.rfl

/-- Every row of the output array is in some point's block: row `r` in block `r / 5000`. -/
theorem cover3 (i : S100000x64.Idx) : ∃ t : Fin cfg3.N, (cfg3.win 4).flush t = true ∧ i ∈ ((cfg3.win 4).blk t).view.set := by
  have hi0 : (i 0).val < 100000 := (i 0).isLt
  have hi1 : (i 1).val < 64 := (i 1).isLt
  refine ⟨⟨(i 0).val / 5000, by show (i 0).val / 5000 < 20; omega⟩, flush3_4 _, ?_⟩
  rw [mem_blk3]
  obtain ⟨-, -, -, -, -, -, -, e40, e41⟩ := idx_facts3 ⟨(i 0).val / 5000, by show (i 0).val / 5000 < 20; omega⟩
  intro a
  match a with
  | ⟨0, _⟩ => show win3_4.index _ (0 : Fin 2) * 5000 ≤ (i 0).val ∧ (i 0).val < win3_4.index _ (0 : Fin 2) * 5000 + 5000; rw [e40]; show (i 0).val / 5000 * 5000 ≤ _ ∧ _ < (i 0).val / 5000 * 5000 + 5000; omega
  | ⟨1, _⟩ => show win3_4.index _ (1 : Fin 2) * 64 ≤ (i 1).val ∧ (i 1).val < win3_4.index _ (1 : Fin 2) * 64 + 64; rw [e41]; omega

/-- The region's output array after its last point: the layer's output of the arrays the region finds. -/
theorem value3 (c : Dev nD) :
    (dat3 (F := Ideal) V c).arrAt 4 cfg3.N = postScale (V c main_v53) (V c main_v38) (V c main_v54) (V c main_arg5) :=
  (dat3 (F := Ideal) V c).arrAt_eq_of_cover 4 _ (fun t _ => flushed3 V c t) (cover3)

end Cert.KernelIdeal.Regions

end
-- ==== Proof.Layer.lean ====
/-
  The two programs' graph-convolution layer as functions of the arrays, at the ideal values.

  A layer takes the node features already multiplied by the weight matrix (`lin`, one row per node), the edge list
  (row 0 of `ei` the source node of each edge, row 1 its destination node) and a bias row.  Both programs form the
  degree factor of a node, the reciprocal square root of (1 + the number of edges that arrive at it).

  * `kCore`: the rows are first scaled by their own node's factor (`kPre`); the scaled rows of the sources are summed
    over the edges that arrive at a node (`kAgg`); the node's own scaled row is added, the sum is scaled by the node's
    factor once more, and the bias is added.
  * `rCore`: a self-loop edge is appended for every node; every edge's source row is scaled by the product of the two
    end nodes' factors, the scaled rows are summed over the edges that arrive at a node, and the bias is added.

  Each is stated first at ARBITRARY columns of index words (`…At`), then at the columns the programs build from the edge
  list.  `dot` is the product of the features with a weight matrix and `relu` the maximum with zero, as the second
  program spells them.
-/
import proofs.«121169_j9388798509588_2_alg».proof.Proof.Gen.KernelIdeal
import proofs.«121169_j9388798509588_2_alg».proof.Proof.Gen.ReferenceIdeal
import Idealize.ShloMosaic.Lib.ValueIdx

noncomputable section

namespace Cert.Gcn

open Idealize.ShloMosaic Idealize.ShloMosaic.ValueIdx

/-- One row of 64 features per node. -/
abbrev NodeMat := FVec Ideal (⟨2, ![100000, 64]⟩ : Shape) .f32
/-- One value per node. -/
abbrev NodeVec := FVec Ideal (⟨1, ![100000]⟩ : Shape) .f32
abbrev Weights := FVec Ideal (⟨2, ![64, 64]⟩ : Shape) .f32
abbrev Bias := FVec Ideal (⟨1, ![64]⟩ : Shape) .f32
/-- The edge list: row 0 the sources, row 1 the destinations, as 32-bit words. -/
abbrev Edges := IVec (⟨2, ![2, 1600000]⟩ : Shape) 32
/-- A column of index words, one per edge. -/
abbrev EdgeCol := IVec (⟨2, ![1600000, 1]⟩ : Shape) 32
/-- A column of index words, one per edge and then one per self-loop. -/
abbrev LoopCol := IVec (⟨2, ![1700000, 1]⟩ : Shape) 32

section Kernel
open Cert.KernelIdeal Cert.KernelIdeal.Facts₀ Cert.KernelIdeal.Facts

/-- The edges' source words. -/
def kSrc (ei : Edges) : IVec S1600000 32 :=
  shapeCast S1600000 (extractStridedSlice S1x1600000 ![0, 0] ei slices_S2x1600000_S1x1600000_0_0) shapeCasts_S1x1600000_S1600000
/-- The edges' destination words. -/
def kDst (ei : Edges) : IVec S1600000 32 :=
  shapeCast S1600000 (extractStridedSlice S1x1600000 ![1, 0] ei slices_S2x1600000_S1x1600000_1_0) shapeCasts_S1x1600000_S1600000
/-- Index words made ready for a gather or a scatter: a negative word has the node count added, and the vector
    becomes a column. -/
def kCol (a : IVec S1600000 32) : EdgeCol :=
  broadcastInDim S1600000x1 ![0] bcast_S1600000_S1600000x1_0
    (select (cmpi .slt a (broadcastInDim S1600000 ![] bcast_S_S1600000 (constantI S_ 32 0#32)))
      (addi a (broadcastInDim S1600000 ![] bcast_S_S1600000 (constantI S_ 32 100000#32))) a)
/-- The degree factor from a column of destination words: the reciprocal square root of max(arrivals + 1, 1). -/
def kDisAt (dstCol : EdgeCol) : NodeVec :=
  Host.rsqrt (F := Ideal) (maximumf (addf
      (Host.scatterAdd (F := Ideal) scatter_S100000_S1600000x1_S1600000_n_0_0_1
        (broadcastInDim S100000 ![] bcast_S_S100000 (constant (F := Ideal) S_ .f32 0x00000000#32)) dstCol
        (broadcastInDim S1600000 ![] bcast_S_S1600000 (constant (F := Ideal) S_ .f32 0x3F800000#32)))
      (broadcastInDim S100000 ![] bcast_S_S100000 (constant (F := Ideal) S_ .f32 0x3F800000#32)))
    (broadcastInDim S100000 ![] bcast_S_S100000 (constant (F := Ideal) S_ .f32 0x3F800000#32)))
/-- Every row scaled by its node's factor. -/
def kPreAt (lin : NodeMat) (dis : NodeVec) : NodeMat :=
  fun p => lin p * dis (ix1 ⟨(p 0).val, idx2_lt0 p⟩)
/-- The scaled source rows summed over the edges arriving at each node. -/
def kAggAt (pre : NodeMat) (srcCol dstCol : EdgeCol) : NodeMat :=
  Host.scatterAdd (F := Ideal) scatter_S100000x64_S1600000x1_S1600000x64_1_0_0_1
    (broadcastInDim S100000x64 ![] bcast_S_S100000x64 (constant (F := Ideal) S_ .f32 0x00000000#32)) dstCol
    (Host.gather gather_S100000x64_S1600000x1_S1600000x64_1_0_n_n_0_1_164 pre srcCol)
/-- The first program's layer, before any activation, at arbitrary index columns and node factors. -/
def kCoreAt (lin : NodeMat) (srcCol dstCol : EdgeCol) (dis : NodeVec) (b : Bias) : NodeMat :=
  fun p => (kAggAt (kPreAt lin dis) srcCol dstCol p + kPreAt lin dis p) * dis (ix1 ⟨(p 0).val, idx2_lt0 p⟩)
    + b (ix1 ⟨(p 1).val, idx2_lt1 p⟩)

/-- The degree factor the first program computes from the edge list. -/
def kDis (ei : Edges) : NodeVec := kDisAt (kCol (kDst ei))
/-- The first program's layer, before any activation. -/
def kCore (lin : NodeMat) (ei : Edges) (b : Bias) : NodeMat :=
  kCoreAt lin (kCol (kSrc ei)) (kCol (kDst ei)) (kDis ei) b

end Kernel

section Reference
open Cert.ReferenceIdeal Cert.ReferenceIdeal.Facts₀ Cert.ReferenceIdeal.Facts

/-- The source words of the edges followed by the self-loops' (node `k` for the `k`-th). -/
def rSrc (ei : Edges) : IVec S1700000 32 :=
  concatenate S1700000 0 [⟨S1600000, shapeCast _ (extractStridedSlice S1x1600000 ![0, 0] ei slices_S2x1600000_S1x1600000_0_0) shapeCasts_S1x1600000_S1600000⟩, ⟨S100000, iotaInDim S100000 32 0⟩] concatenates_S1600000_S100000_S1700000_d0
/-- The destination words of the edges followed by the self-loops'. -/
def rDst (ei : Edges) : IVec S1700000 32 :=
  concatenate S1700000 0 [⟨S1600000, shapeCast _ (extractStridedSlice S1x1600000 ![1, 0] ei slices_S2x1600000_S1x1600000_1_0) shapeCasts_S1x1600000_S1600000⟩, ⟨S100000, iotaInDim S100000 32 0⟩] concatenates_S1600000_S100000_S1700000_d0
/-- Index words made ready for a gather or a scatter, as `kCol`. -/
def rCol (a : IVec S1700000 32) : LoopCol :=
  broadcastInDim S1700000x1 ![0] bcast_S1700000_S1700000x1_0
    (select (cmpi .slt a (broadcastInDim S1700000 ![] bcast_S_S1700000 (constantI S_ 32 0#32)))
      (addi a (broadcastInDim S1700000 ![] bcast_S_S1700000 (constantI S_ 32 100000#32))) a)
/-- The degree factor from a column of destination words (self-loops included): the reciprocal square root of
    max(arrivals, 1). -/
def rDisAt (dstCol : LoopCol) : NodeVec :=
  Host.rsqrt (F := Ideal) (maximumf
    (Host.scatterAdd (F := Ideal) scatter_S100000_S1700000x1_S1700000_n_0_0_1
      (broadcastInDim S100000 ![] bcast_S_S100000 (constant (F := Ideal) S_ .f32 0x00000000#32)) dstCol
      (broadcastInDim S1700000 ![] bcast_S_S1700000 (constant (F := Ideal) S_ .f32 0x3F800000#32)))
    (broadcastInDim S100000 ![] bcast_S_S100000 (constant (F := Ideal) S_ .f32 0x3F800000#32)))
/-- Each edge's weight: the product of its two end nodes' factors. -/
def rNormAt (srcCol dstCol : LoopCol) (dis : NodeVec) : FVec Ideal S1700000 .f32 :=
  mulf (Host.gather gather_S100000_S1700000x1_S1700000_n_0_n_n_0_1_1 dis srcCol)
    (Host.gather gather_S100000_S1700000x1_S1700000_n_0_n_n_0_1_1 dis dstCol)
/-- The second program's layer at arbitrary index columns and node factors. -/
def rCoreAt (lin : NodeMat) (srcCol dstCol : LoopCol) (dis : NodeVec) (b : Bias) : NodeMat :=
  addf
    (Host.scatterAdd (F := Ideal) scatter_S100000x64_S1700000x1_S1700000x64_1_0_0_1
      (broadcastInDim S100000x64 ![] bcast_S_S100000x64 (constant (F := Ideal) S_ .f32 0x00000000#32)) dstCol
      (mulf (Host.gather gather_S100000x64_S1700000x1_S1700000x64_1_0_n_n_0_1_164 lin srcCol)
        (broadcastInDim S1700000x64 ![0, 1] bcast_S1700000x1_S1700000x64_0_1
          (broadcastInDim S1700000x1 ![0] bcast_S1700000_S1700000x1_0 (rNormAt srcCol dstCol dis)))))
    (broadcastInDim S100000x64 ![0, 1] bcast_S1x64_S100000x64_0_1 (broadcastInDim S1x64 ![1] bcast_S64_S1x64_1 b))

/-- The degree factor the second program computes from the edge list. -/
def rDis (ei : Edges) : NodeVec := rDisAt (rCol (rDst ei))
/-- The second program's layer. -/
def rCore (lin : NodeMat) (ei : Edges) (b : Bias) : NodeMat :=
  rCoreAt lin (rCol (rSrc ei)) (rCol (rDst ei)) (rDis ei) b

/-- The features times a weight matrix. -/
def dot (y : NodeMat) (W : Weights) : NodeMat :=
  Host.dotGeneral (F := Ideal) dot_S100000x64_S64x64_S100000x64_1_0_0_1_n_n none y W
/-- The maximum with zero. -/
def relu (y : NodeMat) : NodeMat :=
  maximumf y (broadcastInDim S100000x64 ![] bcast_S_S100000x64 (constant (F := Ideal) S_ .f32 0x00000000#32))

end Reference

end Cert.Gcn

end
-- ==== Proof.KernelValue.lean ====
/-
  The idealized kernel program's result as a function of its arguments.

  The program's buffers are followed through its eight segments.  The first host stretch slices the edge list into
  source and destination words and forms the node factors (`Gcn.kDis`) and their column; the first region leaves the
  scaled product of the features with the first weight matrix; the second stretch gathers the scaled rows of the sources
  and sums them over the edges arriving at each node; the second region leaves the first layer's output with the maximum
  with zero; the third stretch rebuilds the factor column; the third region leaves the scaled product of that output with
  the second weight matrix; the fourth stretch aggregates again; the last region leaves the second layer's output — the
  result.  A buffer no segment in between writes keeps its contents.
-/
import proofs.«121169_j9388798509588_2_alg».proof.Proof.RegionValues
import proofs.«121169_j9388798509588_2_alg».proof.Proof.Layer
import Idealize.ShloMosaic.Lib.StableHlo.Run

set_option maxRecDepth 16384

noncomputable section

namespace Cert.KernelIdeal.Chain

open Cert.KernelIdeal Cert.KernelIdeal.Gen Cert.KernelIdeal.Regions Cert.Gcn
open Idealize.ShloMosaic Idealize.ShloMosaic.TcCoe Idealize.ShloMosaic.ValueIdx Idealize.ShloMosaic.StableHlo Idealize.SL.Sem

variable (m : (ℓ : Loc nD τ sig) → Buf (Elt Ideal) ℓ) (ρ : Dev nD → PrngReg) (c : Dev nD)

/-- The edge list as launched. -/
abbrev edges : Edges := m ((c : Thread nD τ).loc main_arg1)
/-- The node factors as the column the regions read. -/
abbrev disCol : S100000x1.Idx → EReal := shapeCast S100000x1 (kDis (edges m c)) Cert.KernelIdeal.Facts₀.shapeCasts_S100000_S100000x1
/-- First layer: the scaled product, the aggregate, the output after the maximum with zero. -/
abbrev pre1 : NodeMat := scaledProduct (m ((c : Thread nD τ).loc main_arg0)) (m ((c : Thread nD τ).loc main_arg2)) (disCol m c)
abbrev agg1 : NodeMat := kAggAt (pre1 m c) (kCol (kSrc (edges m c))) (kCol (kDst (edges m c)))
abbrev hid : NodeMat := postScaleRelu (agg1 m c) (pre1 m c) (disCol m c) (m ((c : Thread nD τ).loc main_arg3))
/-- Second layer. -/
abbrev pre2 : NodeMat := scaledProduct (hid m c) (m ((c : Thread nD τ).loc main_arg4)) (disCol m c)
abbrev agg2 : NodeMat := kAggAt (pre2 m c) (kCol (kSrc (edges m c))) (kCol (kDst (edges m c)))
abbrev result : NodeMat := postScale (agg2 m c) (pre2 m c) (disCol m c) (m ((c : Thread nD τ).loc main_arg5))

/-! ## After the first host stretch -/

theorem W1_v1 : W1 m ρ c (Proc.devRef .tc main_v1) = kSrc (edges m c) := by
  show StableHlo.after hostOps0 (W0 m ρ c) (Proc.devRef .tc main_v1) = _
  after_results <;> rfl
theorem W1_v3 : W1 m ρ c (Proc.devRef .tc main_v3) = kDst (edges m c) := by
  show StableHlo.after hostOps0 (W0 m ρ c) (Proc.devRef .tc main_v3) = _
  after_results <;> rfl
theorem W1_v17 : W1 m ρ c (Proc.devRef .tc main_v17) = kDis (edges m c) := by
  show StableHlo.after hostOps0 (W0 m ρ c) (Proc.devRef .tc main_v17) = _
  after_results <;> rfl
theorem W1_v18 : W1 m ρ c (Proc.devRef .tc main_v18) = disCol m c := by
  show StableHlo.after hostOps0 (W0 m ρ c) (Proc.devRef .tc main_v18) = _
  after_results <;> rfl
theorem W1_arg0 : W1 m ρ c (Proc.devRef .tc main_arg0) = m ((c : Thread nD τ).loc main_arg0) := by
  show StableHlo.after hostOps0 (W0 m ρ c) (Proc.devRef .tc main_arg0) = _
  after_results <;> rfl
theorem W1_arg2 : W1 m ρ c (Proc.devRef .tc main_arg2) = m ((c : Thread nD τ).loc main_arg2) := by
  show StableHlo.after hostOps0 (W0 m ρ c) (Proc.devRef .tc main_arg2) = _
  after_results <;> rfl
theorem W1_arg3 : W1 m ρ c (Proc.devRef .tc main_arg3) = m ((c : Thread nD τ).loc main_arg3) := by
  show StableHlo.after hostOps0 (W0 m ρ c) (Proc.devRef .tc main_arg3) = _
  after_results <;> rfl
theorem W1_arg4 : W1 m ρ c (Proc.devRef .tc main_arg4) = m ((c : Thread nD τ).loc main_arg4) := by
  show StableHlo.after hostOps0 (W0 m ρ c) (Proc.devRef .tc main_arg4) = _
  after_results <;> rfl
theorem W1_arg5 : W1 m ρ c (Proc.devRef .tc main_arg5) = m ((c : Thread nD τ).loc main_arg5) := by
  show StableHlo.after hostOps0 (W0 m ρ c) (Proc.devRef .tc main_arg5) = _
  after_results <;> rfl

/-! ## After the first region -/

theorem W2_v19 : W2 m ρ c (Proc.devRef .tc main_v19) = pre1 m c := by
  refine (W2_arr m ρ c 3).trans ((value0 (V1 m ρ) c).trans ?_)
  show scaledProduct (W1 m ρ c (Proc.devRef .tc main_arg0)) (W1 m ρ c (Proc.devRef .tc main_arg2)) (W1 m ρ c (Proc.devRef .tc main_v18)) = _
  rw [W1_arg0, W1_arg2, W1_v18]
theorem W2_v1 : W2 m ρ c (Proc.devRef .tc main_v1) = W1 m ρ c (Proc.devRef .tc main_v1) := W2_of_ne m ρ c main_v1 (by decide)
theorem W2_v3 : W2 m ρ c (Proc.devRef .tc main_v3) = W1 m ρ c (Proc.devRef .tc main_v3) := W2_of_ne m ρ c main_v3 (by decide)
theorem W2_v17 : W2 m ρ c (Proc.devRef .tc main_v17) = W1 m ρ c (Proc.devRef .tc main_v17) := W2_of_ne m ρ c main_v17 (by decide)
theorem W2_arg3 : W2 m ρ c (Proc.devRef .tc main_arg3) = W1 m ρ c (Proc.devRef .tc main_arg3) := W2_of_ne m ρ c main_arg3 (by decide)
theorem W2_arg4 : W2 m ρ c (Proc.devRef .tc main_arg4) = W1 m ρ c (Proc.devRef .tc main_arg4) := W2_of_ne m ρ c main_arg4 (by decide)
theorem W2_arg5 : W2 m ρ c (Proc.devRef .tc main_arg5) = W1 m ρ c (Proc.devRef .tc main_arg5) := W2_of_ne m ρ c main_arg5 (by decide)

/-! ## After the second host stretch -/

set_option maxHeartbeats 4000000 in
theorem W3_v34 : W3 m ρ c (Proc.devRef .tc main_v34) = agg1 m c := by
  have h : W3 m ρ c (Proc.devRef .tc main_v34)
      = kAggAt (W2 m ρ c (Proc.devRef .tc main_v19)) (kCol (W2 m ρ c (Proc.devRef .tc main_v1))) (kCol (W2 m ρ c (Proc.devRef .tc main_v3))) := by
    show StableHlo.after hostOps1 (W2 m ρ c) (Proc.devRef .tc main_v34) = _
    after_results
    unfold kAggAt kCol
    rfl
  rw [h, W2_v19, W2_v1, W2_v3, W1_v1, W1_v3]
theorem W3_v35 : W3 m ρ c (Proc.devRef .tc main_v35) = disCol m c := by
  have h : W3 m ρ c (Proc.devRef .tc main_v35)
      = shapeCast S100000x1 (W2 m ρ c (Proc.devRef .tc main_v17)) Cert.KernelIdeal.Facts₀.shapeCasts_S100000_S100000x1 := by
    show StableHlo.after hostOps1 (W2 m ρ c) (Proc.devRef .tc main_v35) = _
    after_results <;> rfl
  rw [h, W2_v17, W1_v17]
theorem W3_v19 : W3 m ρ c (Proc.devRef .tc main_v19) = W2 m ρ c (Proc.devRef .tc main_v19) := by
  show StableHlo.after hostOps1 (W2 m ρ c) (Proc.devRef .tc main_v19) = _
  after_results <;> rfl
theorem W3_v1 : W3 m ρ c (Proc.devRef .tc main_v1) = W2 m ρ c (Proc.devRef .tc main_v1) := by
  show StableHlo.after hostOps1 (W2 m ρ c) (Proc.devRef .tc main_v1) = _
  after_results <;> rfl
theorem W3_v3 : W3 m ρ c (Proc.devRef .tc main_v3) = W2 m ρ c (Proc.devRef .tc main_v3) := by
  show StableHlo.after hostOps1 (W2 m ρ c) (Proc.devRef .tc main_v3) = _
  after_results <;> rfl
theorem W3_v17 : W3 m ρ c (Proc.devRef .tc main_v17) = W2 m ρ c (Proc.devRef .tc main_v17) := by
  show StableHlo.after hostOps1 (W2 m ρ c) (Proc.devRef .tc main_v17) = _
  after_results <;> rfl
theorem W3_arg3 : W3 m ρ c (Proc.devRef .tc main_arg3) = W2 m ρ c (Proc.devRef .tc main_arg3) := by
  show StableHlo.after hostOps1 (W2 m ρ c) (Proc.devRef .tc main_arg3) = _
  after_results <;> rfl
theorem W3_arg4 : W3 m ρ c (Proc.devRef .tc main_arg4) = W2 m ρ c (Proc.devRef .tc main_arg4) := by
  show StableHlo.after hostOps1 (W2 m ρ c) (Proc.devRef .tc main_arg4) = _
  after_results <;> rfl
theorem W3_arg5 : W3 m ρ c (Proc.devRef .tc main_arg5) = W2 m ρ c (Proc.devRef .tc main_arg5) := by
  show StableHlo.after hostOps1 (W2 m ρ c) (Proc.devRef .tc main_arg5) = _
  after_results <;> rfl

/-! ## After the second region -/

theorem W4_v36 : W4 m ρ c (Proc.devRef .tc main_v36) = hid m c := by
  refine (W4_arr m ρ c 4).trans ((value1 (V3 m ρ) c).trans ?_)
  show postScaleRelu (W3 m ρ c (Proc.devRef .tc main_v34)) (W3 m ρ c (Proc.devRef .tc main_v19)) (W3 m ρ c (Proc.devRef .tc main_v35)) (W3 m ρ c (Proc.devRef .tc main_arg3)) = _
  rw [W3_v34, W3_v19, W2_v19, W3_v35, W3_arg3, W2_arg3, W1_arg3]
theorem W4_v1 : W4 m ρ c (Proc.devRef .tc main_v1) = W3 m ρ c (Proc.devRef .tc main_v1) := W4_of_ne m ρ c main_v1 (by decide)
theorem W4_v3 : W4 m ρ c (Proc.devRef .tc main_v3) = W3 m ρ c (Proc.devRef .tc main_v3) := W4_of_ne m ρ c main_v3 (by decide)
theorem W4_v17 : W4 m ρ c (Proc.devRef .tc main_v17) = W3 m ρ c (Proc.devRef .tc main_v17) := W4_of_ne m ρ c main_v17 (by decide)
theorem W4_arg4 : W4 m ρ c (Proc.devRef .tc main_arg4) = W3 m ρ c (Proc.devRef .tc main_arg4) := W4_of_ne m ρ c main_arg4 (by decide)
theorem W4_arg5 : W4 m ρ c (Proc.devRef .tc main_arg5) = W3 m ρ c (Proc.devRef .tc main_arg5) := W4_of_ne m ρ c main_arg5 (by decide)

/-! ## After the third host stretch -/

theorem W5_v37 : W5 m ρ c (Proc.devRef .tc main_v37) = disCol m c := by
  have h : W5 m ρ c (Proc.devRef .tc main_v37)
      = shapeCast S100000x1 (W4 m ρ c (Proc.devRef .tc main_v17)) Cert.KernelIdeal.Facts₀.shapeCasts_S100000_S100000x1 := by
    show StableHlo.after hostOps2 (W4 m ρ c) (Proc.devRef .tc main_v37) = _
    after_results <;> rfl
  rw [h, W4_v17, W3_v17, W2_v17, W1_v17]
theorem W5_v36 : W5 m ρ c (Proc.devRef .tc main_v36) = W4 m ρ c (Proc.devRef .tc main_v36) := by
  show StableHlo.after hostOps2 (W4 m ρ c) (Proc.devRef .tc main_v36) = _
  after_results <;> rfl
theorem W5_v1 : W5 m ρ c (Proc.devRef .tc main_v1) = W4 m ρ c (Proc.devRef .tc main_v1) := by
  show StableHlo.after hostOps2 (W4 m ρ c) (Proc.devRef .tc main_v1) = _
  after_results <;> rfl
theorem W5_v3 : W5 m ρ c (Proc.devRef .tc main_v3) = W4 m ρ c (Proc.devRef .tc main_v3) := by
  show StableHlo.after hostOps2 (W4 m ρ c) (Proc.devRef .tc main_v3) = _
  after_results <;> rfl
theorem W5_v17 : W5 m ρ c (Proc.devRef .tc main_v17) = W4 m ρ c (Proc.devRef .tc main_v17) := by
  show StableHlo.after hostOps2 (W4 m ρ c) (Proc.devRef .tc main_v17) = _
  after_results <;> rfl
theorem W5_arg4 : W5 m ρ c (Proc.devRef .tc main_arg4) = W4 m ρ c (Proc.devRef .tc main_arg4) := by
  show StableHlo.after hostOps2 (W4 m ρ c) (Proc.devRef .tc main_arg4) = _
  after_results <;> rfl
theorem W5_arg5 : W5 m ρ c (Proc.devRef .tc main_arg5) = W4 m ρ c (Proc.devRef .tc main_arg5) := by
  show StableHlo.after hostOps2 (W4 m ρ c) (Proc.devRef .tc main_arg5) = _
  after_results <;> rfl

/-! ## After the third region -/

theorem W6_v38 : W6 m ρ c (Proc.devRef .tc main_v38) = pre2 m c := by
  refine (W6_arr m ρ c 3).trans ((value2 (V5 m ρ) c).trans ?_)
  show scaledProduct (W5 m ρ c (Proc.devRef .tc main_v36)) (W5 m ρ c (Proc.devRef .tc main_arg4)) (W5 m ρ c (Proc.devRef .tc main_v37)) = _
  rw [W5_v36, W4_v36, W5_arg4, W4_arg4, W3_arg4, W2_arg4, W1_arg4, W5_v37]
theorem W6_v1 : W6 m ρ c (Proc.devRef .tc main_v1) = W5 m ρ c (Proc.devRef .tc main_v1) := W6_of_ne m ρ c main_v1 (by decide)
theorem W6_v3 : W6 m ρ c (Proc.devRef .tc main_v3) = W5 m ρ c (Proc.devRef .tc main_v3) := W6_of_ne m ρ c main_v3 (by decide)
theorem W6_v17 : W6 m ρ c (Proc.devRef .tc main_v17) = W5 m ρ c (Proc.devRef .tc main_v17) := W6_of_ne m ρ c main_v17 (by decide)
theorem W6_arg5 : W6 m ρ c (Proc.devRef .tc main_arg5) = W5 m ρ c (Proc.devRef .tc main_arg5) := W6_of_ne m ρ c main_arg5 (by decide)

/-! ## After the fourth host stretch -/

set_option maxHeartbeats 4000000 in
theorem W7_v53 : W7 m ρ c (Proc.devRef .tc main_v53) = agg2 m c := by
  have h : W7 m ρ c (Proc.devRef .tc main_v53)
      = kAggAt (W6 m ρ c (Proc.devRef .tc main_v38)) (kCol (W6 m ρ c (Proc.devRef .tc main_v1))) (kCol (W6 m ρ c (Proc.devRef .tc main_v3))) := by
    show StableHlo.after hostOps3 (W6 m ρ c) (Proc.devRef .tc main_v53) = _
    after_results
    unfold kAggAt kCol
    rfl
  rw [h, W6_v38, W6_v1, W5_v1, W4_v1, W3_v1, W2_v1, W1_v1, W6_v3, W5_v3, W4_v3, W3_v3, W2_v3, W1_v3]
theorem W7_v54 : W7 m ρ c (Proc.devRef .tc main_v54) = disCol m c := by
  have h : W7 m ρ c (Proc.devRef .tc main_v54)
      = shapeCast S100000x1 (W6 m ρ c (Proc.devRef .tc main_v17)) Cert.KernelIdeal.Facts₀.shapeCasts_S100000_S100000x1 := by
    show StableHlo.after hostOps3 (W6 m ρ c) (Proc.devRef .tc main_v54) = _
    after_results <;> rfl
  rw [h, W6_v17, W5_v17, W4_v17, W3_v17, W2_v17, W1_v17]
theorem W7_v38 : W7 m ρ c (Proc.devRef .tc main_v38) = W6 m ρ c (Proc.devRef .tc main_v38) := by
  show StableHlo.after hostOps3 (W6 m ρ c) (Proc.devRef .tc main_v38) = _
  after_results <;> rfl
theorem W7_arg5 : W7 m ρ c (Proc.devRef .tc main_arg5) = W6 m ρ c (Proc.devRef .tc main_arg5) := by
  show StableHlo.after hostOps3 (W6 m ρ c) (Proc.devRef .tc main_arg5) = _
  after_results <;> rfl

/-! ## After the last region: the result -/

theorem W8_result : W8 m ρ c (Proc.devRef .tc main_v55) = result m c := by
  refine (W8_arr m ρ c 4).trans ((value3 (V7 m ρ) c).trans ?_)
  show postScale (W7 m ρ c (Proc.devRef .tc main_v53)) (W7 m ρ c (Proc.devRef .tc main_v38)) (W7 m ρ c (Proc.devRef .tc main_v54)) (W7 m ρ c (Proc.devRef .tc main_arg5)) = _
  rw [W7_v53, W7_v38, W6_v38, W7_v54, W7_arg5, W6_arg5, W5_arg5, W4_arg5, W3_arg5, W2_arg5, W1_arg5]

end Cert.KernelIdeal.Chain

end
-- ==== Proof.KernelForm.lean ====
/-
  The regions' closed forms are the first program's layer functions.

  A product region leaves each row's product with the weight matrix times the row's factor; an output region leaves
  (aggregated + scaled) · factor + bias, in the first layer followed by the maximum with zero.  The regions read the node
  factors as a column with one entry per row; that column is the vector of factors reshaped, and reads the vector's
  entry at each row.  With that, the product region's form is the layer's scaled rows of the product (the product read
  at an entry is the sum over the inner index), and the output regions' forms are the layer before any activation and
  its maximum with zero.
-/
import proofs.«121169_j9388798509588_2_alg».proof.Proof.RegionValues
import proofs.«121169_j9388798509588_2_alg».proof.Proof.Layer
import proofs.«121169_j9388798509588_2_alg».proof.Proof.LibLayout
import proofs.«121169_j9388798509588_2_alg».proof.Proof.LibDenseBias

noncomputable section

namespace Cert.Gcn

open Idealize.ShloMosaic Idealize.ShloMosaic.ValueIdx
open Cert.KernelIdeal Cert.KernelIdeal.Facts₀

/-- The node factors as the column the regions read. -/
def kDisCol (d : NodeVec) : FVec Ideal S100000x1 .f32 := shapeCast S100000x1 d shapeCasts_S100000_S100000x1

/-- The column of factors at a row is the vector's entry at that row. -/
theorem kDisCol_apply (d : NodeVec) (a : Fin 100000) : kDisCol d (ix2 a (0 : Fin 1)) = d (ix1 a) :=
  Cert.LibLayout.shapeCast_a_a1_apply d shapeCasts_S100000_S100000x1 a (0 : Fin 1)

/-- The product of the features with a weight matrix at an entry: the sum over the inner index. -/
theorem dot_apply (X : NodeMat) (W : Weights) (a : Fin 100000) (q : Fin 64) :
    dot X W (ix2 a q) = ∑ k : Fin 64, X (ix2 a k) * W (ix2 k q) :=
  Cert.Lib.DenseBias.dense_host_entry (M := 100000) (K := 64) (N := 64) X W a q

/-- The maximum with zero at an entry. -/
theorem relu_apply (y : NodeMat) (p : (⟨2, ![100000, 64]⟩ : Shape).Idx) :
    relu y p = max (y p) (Ideal.ofBits .f32 0x00000000#32) := rfl

/-- The output regions' form at an entry. -/
theorem postScale_apply (A P : NodeMat) (D : FVec Ideal S100000x1 .f32) (b : Bias) (p : (⟨2, ![100000, 64]⟩ : Shape).Idx) :
    Cert.KernelIdeal.Regions.postScale A P D b p
      = (A p + P p) * D (ix2 ⟨(p 0).val, idx2_lt0 p⟩ (0 : Fin 1)) + b (ix1 ⟨(p 1).val, idx2_lt1 p⟩) := rfl

/-- The first layer's output region's form at an entry. -/
theorem postScaleRelu_apply (A P : NodeMat) (D : FVec Ideal S100000x1 .f32) (b : Bias) (p : (⟨2, ![100000, 64]⟩ : Shape).Idx) :
    Cert.KernelIdeal.Regions.postScaleRelu A P D b p
      = max (Cert.KernelIdeal.Regions.postScale A P D b p) (Ideal.ofBits .f32 0x00000000#32) := rfl

/-- The layer before any activation at an entry, from the aggregated and the scaled rows. -/
theorem kCoreAt_entry (lin : NodeMat) (sK dK : EdgeCol) (d : NodeVec) (b : Bias) (p : (⟨2, ![100000, 64]⟩ : Shape).Idx) :
    kCoreAt lin sK dK d b p
      = (kAggAt (kPreAt lin d) sK dK p + kPreAt lin d p) * d (ix1 ⟨(p 0).val, idx2_lt0 p⟩) + b (ix1 ⟨(p 1).val, idx2_lt1 p⟩) := rfl

theorem scaledProduct_eq (X : NodeMat) (W : Weights) (d : NodeVec) :
    Cert.KernelIdeal.Regions.scaledProduct X W (kDisCol d) = kPreAt (dot X W) d := by
  funext p
  obtain ⟨a, q, rfl⟩ : ∃ (a : Fin 100000) (q : Fin 64), p = ix2 a q := ⟨p 0, p 1, eq_ix2 p⟩
  show (∑ k : Fin 64, X (ix2 a k) * W (ix2 k q)) * kDisCol d (ix2 a (0 : Fin 1)) = dot X W (ix2 a q) * d (ix1 a)
  rw [kDisCol_apply, dot_apply]

theorem postScale_eq (lin : NodeMat) (sK dK : EdgeCol) (d : NodeVec) (b : Bias) :
    Cert.KernelIdeal.Regions.postScale (kAggAt (kPreAt lin d) sK dK) (kPreAt lin d) (kDisCol d) b = kCoreAt lin sK dK d b := by
  funext p
  rw [postScale_apply, kCoreAt_entry, kDisCol_apply]

theorem postScaleRelu_eq (lin : NodeMat) (sK dK : EdgeCol) (d : NodeVec) (b : Bias) :
    Cert.KernelIdeal.Regions.postScaleRelu (kAggAt (kPreAt lin d) sK dK) (kPreAt lin d) (kDisCol d) b = relu (kCoreAt lin sK dK d b) := by
  funext p
  rw [relu_apply, postScaleRelu_apply, postScale_eq]

end Cert.Gcn

end
-- ==== Proof.LibEdgeRows.lean ====
/-
  GATHERS OF ROWS AND OF ENTRIES BY A COLUMN OF INDICES, AND WHERE A ROW SCATTER LANDS.

  Three host shape operations with a column `[E, 1]` of integer indices, each read at one index:
  * a gather of ROWS of a table `[N, C]` (`rowGather`): row `e` of the result is the table's row at the `e`-th index
    word, read signed and clamped into `[0, N − 1]`; the column is kept (`rowGather_apply`);
  * a gather of ENTRIES of a vector `[N]` (`entryGather`): entry `e` of the result is the vector's entry at the `e`-th
    index word, read signed and clamped into `[0, N − 1]` (`entryGather_apply`);
  * a scatter of the ROWS of updates `[E, C]` into a table `[N, C]` (`rowScatter`): an update entry `(e, q)` that lands
    at table entry `i` has the `e`-th index word, read signed, equal to `i`'s row, and keeps its column
    (`rowScatter_lands`); so the clamped index of the matching gather is `i`'s row as well (`rowScatter_lands_clamp`).
  The dimension numbers are structure literals over the sizes with the well-formedness proof a parameter, so a
  program's record with the same lists equals them by `rfl`.
  Last, two facts about how such a column of indices is prepared: the wrap of a negative index (add `m` where the
  index is below zero) leaves an index that is nonnegative read signed as it is (`wrap_apply_of_nonneg`), and a vector
  `[E]` broadcast to the column `[E, 1]` reads the vector's entry `e` at row `e` (`column_apply`).
-/
import Idealize.ShloMosaic.Lib.ValueIdx

namespace Cert.Lib.EdgeRows

open Idealize.ShloMosaic Idealize.ShloMosaic.ValueIdx

/-! ## A gather of rows -/

section RowGather
variable {α : Type}

/-- The dimension numbers of a gather of rows: operand `[N, C]`, start indices `[E, 1]`, result `[E, C]`; axis 0 of
    the operand is indexed and collapsed, axis 1 is taken whole as the result's axis 1. -/
abbrev rowGather (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The gather of rows read at `(e, q)`: the operand at the row named by the `e`-th index word, read signed and clamped
    into `[0, N − 1]`, and at column `q`. -/
theorem rowGather_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (q : Fin C) :
    Host.gather (rowGather N E C wf) x idx (ix2 e q)
      = x (ix2 ⟨min (idx (ix2 e (0 : Fin 1))).toInt.toNat (N - 1), by omega⟩ q) := by
  unfold Host.gather
  congr 1
  funext a
  refine Fin.ext ?_
  match a with
  | ⟨0, h0⟩ =>
    show (rowGather N E C wf).start (ix2 e q) idx ⟨0, h0⟩ + (rowGather N E C wf).batchCoord (ix2 e q) ⟨0, h0⟩
      + (rowGather N E C wf).offCoord (ix2 e q) ⟨0, h0⟩ = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (⟨0, h0⟩ : Fin 2) ∈ (rowGather N E C wf).startIndexMap from List.mem_singleton.mpr rfl)]
    have hsi : (rowGather N E C wf).siIdx (ix2 e q) ⟨List.idxOf (⟨0, h0⟩ : Fin 2) (rowGather N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, h1⟩ =>
    show (rowGather N E C wf).start (ix2 e q) idx ⟨1, h1⟩ + (rowGather N E C wf).batchCoord (ix2 e q) ⟨1, h1⟩
      + (rowGather N E C wf).offCoord (ix2 e q) ⟨1, h1⟩ = q.val
    rw [GatherDims.batchCoord_eq_zero _ _ _ List.not_mem_nil]
    have hs : (rowGather N E C wf).start (ix2 e q) idx ⟨1, h1⟩ = 0 := by
      unfold GatherDims.start
      rw [dif_neg (fun h => Nat.one_ne_zero (congrArg Fin.val (List.mem_singleton.mp h)))]
    rw [hs]
    simp only [Nat.add_zero, Nat.zero_add]
    rfl

end RowGather

/-! ## A gather of entries -/

section EntryGather
variable {α : Type}

/-- The dimension numbers of a gather of entries: operand `[N]`, start indices `[E, 1]`, result `[E]`; the operand's
    one axis is indexed and collapsed. -/
abbrev entryGather (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The gather of entries read at `e`: the operand at the `e`-th index word, read signed and clamped into
    `[0, N − 1]`. -/
theorem entryGather_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (entryGather N E wf) x idx (ix1 e)
      = x (ix1 ⟨min (idx (ix2 e (0 : Fin 1))).toInt.toNat (N - 1), by omega⟩) := by
  unfold Host.gather
  congr 1
  funext a
  obtain rfl : a = 0 := Subsingleton.elim _ _
  refine Fin.ext ?_
  show (entryGather N E wf).start (ix1 e) idx 0 + (entryGather N E wf).batchCoord (ix1 e) 0
    + (entryGather N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (entryGather N E wf).startIndexMap from List.mem_singleton.mpr rfl)]
  have hsi : (entryGather N E wf).siIdx (ix1 e) ⟨List.idxOf (0 : Fin 1) (entryGather N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end EntryGather

/-! ## A scatter of rows -/

section RowScatter

/-- The dimension numbers of a scatter of rows: operand `[N, C]`, scatter indices `[E, 1]`, updates `[E, C]`; the
    index names the operand's axis 0, which the update window does not have, and the updates' axis 1 is the window
    over the operand's axis 1. -/
abbrev rowScatter (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- On the operand's axis 0 the window starts at the `e`-th index word, read signed. -/
theorem rowScatter_start_zero {N E C w : Nat}
    (wf : ScatterDims.WF ⟨2, ![N, C]⟩ ⟨2, ![E, 1]⟩ ⟨2, ![E, C]⟩ [1] [0] [0] 1)
    (idx : IVec ⟨2, ![E, 1]⟩ w) (e : Fin E) (q : Fin C) (h0 : 0 < 2) :
    (rowScatter N E C wf).start (ix2 e q) idx ⟨0, h0⟩ = (idx (ix2 e (0 : Fin 1))).toInt := by
  unfold ScatterDims.start
  rw [dif_pos (show (⟨0, h0⟩ : Fin 2) ∈ (rowScatter N E C wf).scatterDimsToOperandDims from List.mem_singleton.mpr rfl)]
  have hsi : (rowScatter N E C wf).siIdx (ix2 e q)
      ⟨List.idxOf (⟨0, h0⟩ : Fin 2) (rowScatter N E C wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the operand's axis 1 the window starts at 0. -/
theorem rowScatter_start_one {N E C w : Nat}
    (wf : ScatterDims.WF ⟨2, ![N, C]⟩ ⟨2, ![E, 1]⟩ ⟨2, ![E, C]⟩ [1] [0] [0] 1)
    (idx : IVec ⟨2, ![E, 1]⟩ w) (e : Fin E) (q : Fin C) (h1 : 1 < 2) :
    (rowScatter N E C wf).start (ix2 e q) idx ⟨1, h1⟩ = 0 := by
  unfold ScatterDims.start
  rw [dif_neg (fun h => Nat.one_ne_zero (congrArg Fin.val (List.mem_singleton.mp h)))]

/-- The operand's axis 0 has no window coordinate. -/
theorem rowScatter_window_zero {N E C : Nat}
    (wf : ScatterDims.WF ⟨2, ![N, C]⟩ ⟨2, ![E, 1]⟩ ⟨2, ![E, C]⟩ [1] [0] [0] 1)
    (e : Fin E) (q : Fin C) (h0 : 0 < 2) :
    (rowScatter N E C wf).window (ix2 e q) ⟨0, h0⟩ = 0 := by
  have hn : (⟨0, h0⟩ : Fin 2) ∉ (rowScatter N E C wf).sKept :=
    fun h => of_decide_eq_true (List.mem_filter.1 h).2 (List.mem_singleton.mpr rfl)
  unfold ScatterDims.window
  rw [dif_neg hn]

/-- On the operand's axis 1 the window coordinate is the update's column. -/
theorem rowScatter_window_one {N E C : Nat}
    (wf : ScatterDims.WF ⟨2, ![N, C]⟩ ⟨2, ![E, 1]⟩ ⟨2, ![E, C]⟩ [1] [0] [0] 1)
    (e : Fin E) (q : Fin C) (h1 : 1 < 2) :
    (rowScatter N E C wf).window (ix2 e q) ⟨1, h1⟩ = q.val := by
  have hm : (⟨1, h1⟩ : Fin 2) ∈ (rowScatter N E C wf).sKept :=
    List.mem_filter.2 ⟨List.mem_finRange _,
      decide_eq_true (fun h => Nat.one_ne_zero (congrArg Fin.val (List.mem_singleton.mp h)))⟩
  unfold ScatterDims.window
  rw [dif_pos hm]
  rfl

/-- An update entry `(e, q)` that lands at operand entry `i` has the `e`-th index word, read signed, equal to `i`'s
    row, and keeps its column. -/
theorem rowScatter_lands {N E C w : Nat}
    (wf : ScatterDims.WF ⟨2, ![N, C]⟩ ⟨2, ![E, 1]⟩ ⟨2, ![E, C]⟩ [1] [0] [0] 1)
    (idx : IVec ⟨2, ![E, 1]⟩ w) (e : Fin E) (q : Fin C) (i : (⟨2, ![N, C]⟩ : Shape).Idx)
    (h : (rowScatter N E C wf).resultIdx? (ix2 e q) idx = some i) :
    (idx (ix2 e (0 : Fin 1))).toInt = ((i 0).val : Int) ∧ (i 1).val = q.val := by
  unfold ScatterDims.resultIdx? at h
  split at h
  · rename_i hb
    have hi := Option.some.inj h
    subst hi
    have h02 : 0 < 2 := Nat.zero_lt_two
    have h12 : 1 < 2 := Nat.one_lt_two
    constructor
    · have hb0 := (hb ⟨0, h02⟩).1
      show _ = (((rowScatter N E C wf).start (ix2 e q) idx ⟨0, h02⟩
        + ((rowScatter N E C wf).window (ix2 e q) ⟨0, h02⟩ : Nat) : Int).toNat : Int)
      rw [rowScatter_start_zero, rowScatter_window_zero] at hb0 ⊢
      omega
    · show ((rowScatter N E C wf).start (ix2 e q) idx ⟨1, h12⟩
        + ((rowScatter N E C wf).window (ix2 e q) ⟨1, h12⟩ : Nat) : Int).toNat = q.val
      rw [rowScatter_start_one, rowScatter_window_one]
      omega
  · exact absurd h (by simp)

/-- So the index word of a landing update, read signed and clamped into `[0, N − 1]` as the matching gather of rows
    reads it, is the row it lands at. -/
theorem rowScatter_lands_clamp {N E C w : Nat}
    (wf : ScatterDims.WF ⟨2, ![N, C]⟩ ⟨2, ![E, 1]⟩ ⟨2, ![E, C]⟩ [1] [0] [0] 1)
    (idx : IVec ⟨2, ![E, 1]⟩ w) (e : Fin E) (q : Fin C) (i : (⟨2, ![N, C]⟩ : Shape).Idx)
    (h : (rowScatter N E C wf).resultIdx? (ix2 e q) idx = some i) :
    min (idx (ix2 e (0 : Fin 1))).toInt.toNat (N - 1) = (i 0).val := by
  have h0 := (rowScatter_lands wf idx e q i h).1
  have hlt : (i 0).val < N := idx2_lt0 i
  rw [h0]
  omega

end RowScatter

/-! ## The wrap of a negative index, at a nonnegative index; a vector of indices as a column -/

section Wrap

/-- A word that is nonnegative when read signed is not signed-less-than zero: the comparison's bit is `0`. -/
theorem cmpi_slt_zero_of_nonneg {w : Nat} (x : BitVec w) (h : 0 ≤ x.toInt) : IntOp.cmpi .slt x 0#w = 0#1 := by
  have hs : x.slt 0#w = false := by
    simp only [BitVec.slt, BitVec.toInt_zero, decide_eq_false_iff_not, not_lt]
    exact h
  show BitVec.ofBool (x.slt 0#w) = 0#1
  rw [hs]
  rfl

/-- The normalisation of a possibly negative index — where the index is signed-less-than a splat `0`, the index plus a
    splat `m`, elsewhere the index — is the index itself wherever the index is nonnegative read signed. -/
theorem wrap_apply_of_nonneg {s0 s : Shape} {w : Nat} (dims : Fin s0.rank → Fin s.rank) (hb : s0.BroadcastsInDim s dims)
    (m : BitVec w) (a : IVec s w) (k : s.Idx) (h : 0 ≤ (a k).toInt) :
    select (cmpi .slt a (broadcastInDim s dims hb (constantI s0 w 0#w)))
      (addi a (broadcastInDim s dims hb (constantI s0 w m))) a k = a k := by
  have hc : cmpi .slt a (broadcastInDim s dims hb (constantI s0 w 0#w)) k = 0#1 :=
    cmpi_slt_zero_of_nonneg (a k) h
  rw [select_apply, hc, select_zero]

/-- A vector `[E]` broadcast to the column `[E, 1]` along axis 0 reads, at row `e`, the vector's entry `e`. -/
theorem column_apply {α : Type} {E : Nat} (hb : (⟨1, ![E]⟩ : Shape).BroadcastsInDim ⟨2, ![E, 1]⟩ ![0])
    (v : (⟨1, ![E]⟩ : Shape).Idx → α) (e : Fin E) (z : Fin 1) :
    broadcastInDim ⟨2, ![E, 1]⟩ ![0] hb v (ix2 e z) = v (ix1 e) := by
  unfold broadcastInDim
  congr 1
  funext a
  obtain rfl : a = 0 := Subsingleton.elim _ _
  refine Fin.ext ?_
  split
  · rename_i h1
    have hE : E = 1 := h1
    have := e.isLt
    show 0 = e.val
    omega
  · rfl

end Wrap

end Cert.Lib.EdgeRows
-- ==== Proof.IndexWords.lean ====
/-
  The two programs' columns of index words correspond.

  The second program's source (destination) words are the first program's 1,600,000 edge words followed by one word per
  node, the node's own number (the self-loops).  Both programs then add the node count to a word that is negative read
  signed, and turn the vector into a column.  So at an edge the two columns hold the same word, and at the `k`-th
  self-loop the second program's column holds the word of `k`: that word is nonnegative read signed, and the wrap leaves
  it as it is.
-/
import proofs.«121169_j9388798509588_2_alg».proof.Proof.Layer
import proofs.«121169_j9388798509588_2_alg».proof.Proof.LibEdgeRows
import Idealize.ShloMosaic.Lib.Pipeline.Value
import Idealize.ShloMosaic.Lib.IdealHost

namespace Cert.Gcn

open Idealize.ShloMosaic Idealize.ShloMosaic.ValueIdx
open Cert.Lib.EdgeRows

/-- The wrap of one index word: the node count added where the word is negative read signed. -/
def wrapWord (x : BitVec 32) : BitVec 32 :=
  Scalar.select (IntOp.cmpi .slt x 0#32) (x + 100000#32) x

/-- The word of a number below 2^31, read signed, is the number. -/
theorem toInt_ofNat_small (k : Nat) (hk : k < 2147483648) : (BitVec.ofNat 32 k).toInt = (k : Int) := by
  rw [BitVec.toInt_eq_toNat_cond, BitVec.toNat_ofNat]
  omega

section Kernel
open Cert.KernelIdeal Cert.KernelIdeal.Facts₀

/-- The first program's column at an edge: the wrap of the vector's word. -/
theorem kCol_apply (a : IVec S1600000 32) (e : Fin 1600000) :
    kCol a (ix2 e (0 : Fin 1)) = wrapWord (a (ix1 e)) := by
  unfold kCol
  rw [column_apply]
  rfl

end Kernel

section Reference
open Cert.ReferenceIdeal Cert.ReferenceIdeal.Facts₀

/-- The second program's column at a position: the wrap of the vector's word. -/
theorem rCol_apply (a : IVec S1700000 32) (e : Fin 1700000) :
    rCol a (ix2 e (0 : Fin 1)) = wrapWord (a (ix1 e)) := by
  unfold rCol
  rw [column_apply]
  rfl

/-- Edge words followed by self-loop words, read at an edge: the edge's word. -/
theorem cat_edge (x₁ : IVec S1600000 32) (x₂ : IVec S100000 32) (e : Fin 1600000) :
    concatenate S1700000 0 [⟨S1600000, x₁⟩, ⟨S100000, x₂⟩] concatenates_S1600000_S100000_S1700000_d0
      (ix1 (⟨e.val, by omega⟩ : Fin 1700000)) = x₁ (ix1 e) := by
  refine concatenate_pair_apply_left (t := S1700000) (0 : Fin S1700000.rank) x₁ x₂ _ _ rfl (ix1 e) ?_
  intro b
  match b with
  | ⟨0, _⟩ => rfl

/-- Edge words followed by self-loop words, read at the `k`-th self-loop: the `k`-th self-loop word. -/
theorem cat_loop (x₁ : IVec S1600000 32) (x₂ : IVec S100000 32) (k : Fin 100000) :
    concatenate S1700000 0 [⟨S1600000, x₁⟩, ⟨S100000, x₂⟩] concatenates_S1600000_S100000_S1700000_d0
      (ix1 (⟨1600000 + k.val, by omega⟩ : Fin 1700000)) = x₂ (ix1 k) := by
  refine concatenate_pair_apply_right (t := S1700000) (0 : Fin S1700000.rank) x₁ x₂ _ _ rfl rfl (ix1 k) ?_ ?_
  · intro b hb
    match b with
    | ⟨0, _⟩ => exact absurd rfl hb
  · show k.val + 1600000 = 1600000 + k.val
    omega

end Reference

/-- The second program's source word at an edge is the first program's. -/
theorem rSrc_edge (ei : Edges) (e : Fin 1600000) :
    rSrc ei (ix1 (⟨e.val, by omega⟩ : Fin 1700000)) = kSrc ei (ix1 e) := by
  unfold rSrc
  rw [cat_edge]
  rfl

/-- The second program's source word at the `k`-th self-loop is the word of `k`. -/
theorem rSrc_loop (ei : Edges) (k : Fin 100000) :
    rSrc ei (ix1 (⟨1600000 + k.val, by omega⟩ : Fin 1700000)) = BitVec.ofNat 32 k.val := by
  unfold rSrc
  rw [cat_loop]
  rfl

/-- The second program's destination word at an edge is the first program's. -/
theorem rDst_edge (ei : Edges) (e : Fin 1600000) :
    rDst ei (ix1 (⟨e.val, by omega⟩ : Fin 1700000)) = kDst ei (ix1 e) := by
  unfold rDst
  rw [cat_edge]
  rfl

/-- The second program's destination word at the `k`-th self-loop is the word of `k`. -/
theorem rDst_loop (ei : Edges) (k : Fin 100000) :
    rDst ei (ix1 (⟨1600000 + k.val, by omega⟩ : Fin 1700000)) = BitVec.ofNat 32 k.val := by
  unfold rDst
  rw [cat_loop]
  rfl

/-- The wrap leaves the word of a node number as it is. -/
theorem wrapWord_ofNat (k : Fin 100000) : wrapWord (BitVec.ofNat 32 k.val) = BitVec.ofNat 32 k.val := by
  have h : 0 ≤ (BitVec.ofNat 32 k.val).toInt := by
    rw [toInt_ofNat_small k.val (by omega)]
    omega
  unfold wrapWord
  rw [cmpi_slt_zero_of_nonneg _ h, select_zero]

theorem src_edge (ei : Edges) (e : Fin 1600000) :
    rCol (rSrc ei) (ix2 (⟨e.val, by omega⟩ : Fin 1700000) (0 : Fin 1)) = kCol (kSrc ei) (ix2 e (0 : Fin 1)) := by
  rw [rCol_apply, kCol_apply, rSrc_edge]

theorem src_loop (ei : Edges) (k : Fin 100000) :
    rCol (rSrc ei) (ix2 (⟨1600000 + k.val, by omega⟩ : Fin 1700000) (0 : Fin 1)) = BitVec.ofNat 32 k.val := by
  rw [rCol_apply, rSrc_loop, wrapWord_ofNat]

theorem dst_edge (ei : Edges) (e : Fin 1600000) :
    rCol (rDst ei) (ix2 (⟨e.val, by omega⟩ : Fin 1700000) (0 : Fin 1)) = kCol (kDst ei) (ix2 e (0 : Fin 1)) := by
  rw [rCol_apply, kCol_apply, rDst_edge]

theorem dst_loop (ei : Edges) (k : Fin 100000) :
    rCol (rDst ei) (ix2 (⟨1600000 + k.val, by omega⟩ : Fin 1700000) (0 : Fin 1)) = BitVec.ofNat 32 k.val := by
  rw [rCol_apply, rDst_loop, wrapWord_ofNat]

end Cert.Gcn
-- ==== Proof.LibScatterAddRead.lean ====
/-
  An accumulating scatter read at a position, at the ideal values.

  A host scatter whose body adds (a segment sum, `x.at[idx].add(u)`) leaves at each position of the operand the
  operand's entry plus the sum of the updates that land there.  Written with the landing test inside the sum — every
  update contributes itself where it lands on the position and zero elsewhere — the sum runs over ALL updates, so it
  can be re-indexed by any bijection of the updates and compared summand by summand.

  The statement is over arbitrary shapes, element formats and index widths.  Use it by `rw` on a scatter over
  variables or over a program's operands, and compare summands with `if_congr`; do not restate the sum at literal
  shapes of millions of entries, and do not unfold the scatter there.
-/
import Idealize.ShloMosaic.PureOps
import Idealize.ShloMosaic.PureOps.Ideal

noncomputable section

namespace Cert.Lib.ScatterAddRead

open Idealize.ShloMosaic

/-- An accumulating scatter at a position: the operand there plus every update, counted where it lands there. -/
theorem scatterAdd_at {s si u : Shape} {φ : FTy} {w : Nat} (d : ScatterDims s si u) (v : FVec Ideal s φ)
    (idx : IVec si w) (upd : FVec Ideal u φ) (p : s.Idx) :
    Host.scatterAdd (F := Ideal) d v idx upd p
      = v p + ∑ j, if d.resultIdx? j idx = some p then upd j else 0 := by
  unfold Host.scatterAdd
  rw [Ideal.hostScatterAdd_def]
  unfold Ideal.hostScatterAdd
  rw [Finset.sum_filter]

end Cert.Lib.ScatterAddRead

end
-- ==== Proof.LibEntryScatter.lean ====
/-
  A SCATTER OF ENTRIES INTO A VECTOR BY A COLUMN OF INDICES: WHERE AN UPDATE LANDS, AND THE ACCUMULATED VALUE AT A NODE.

  A host scatter of updates `[E]` into a vector `[N]` by a column `[E, 1]` of integer index words (`entryScatter`):
  the index names the vector's one axis, which the update window does not have.
  * the window of update `e` starts at the `e`-th index word read signed (`entryScatter_start`) and has no window
    coordinate (`entryScatter_window`);
  * update `e` lands at entry `i` IF AND ONLY IF the `e`-th index word, read signed, equals `i`
    (`entryScatter_lands_iff`); a word outside `[0, N − 1]` lands nowhere;
  * hence the accumulating scatter read at entry `i` is the operand there plus the sum, over ALL updates `e : Fin E`, of
    the update where its word reads `i` and zero elsewhere (`entryScatterAdd_at`).
  The dimension numbers are a structure literal over the sizes with the well-formedness proof a parameter, so a program's
  record with the same lists equals it by `rfl`.
  Beside these: a rank-1 index set is its one coordinate range (`idxEquiv1` / `sum_idx1`); a sum over `Fin n` with
  `n = m + d` is the sum of its first `m` terms plus the sum of its last `d`, the positions written as naturals
  (`sum_fin_split`); and the word of a natural below half the word range reads signed as that natural
  (`toInt_ofNat_of_lt`).
-/
import Idealize.ShloMosaic.Lib.ValueIdx
import proofs.«121169_j9388798509588_2_alg».proof.Proof.LibScatterAddRead

noncomputable section

open scoped BigOperators

namespace Cert.Lib.EntryScatter

open Idealize.ShloMosaic Idealize.ShloMosaic.ValueIdx

/-! ## A rank-1 index set -/

/-- A rank-1 index set is its one coordinate range … -/
def idxEquiv1 {n : Nat} : (⟨1, ![n]⟩ : Shape).Idx ≃ Fin n where
  toFun j := j 0
  invFun a := ix1 a
  left_inv j := (eq_ix1 j).symm
  right_inv _ := rfl

/-- … so a sum over it is the sum over the coordinate. -/
theorem sum_idx1 {M : Type*} [AddCommMonoid M] {n : Nat} (f : (⟨1, ![n]⟩ : Shape).Idx → M) :
    ∑ j, f j = ∑ a : Fin n, f (ix1 a) :=
  (Equiv.sum_comp (idxEquiv1 (n := n)).symm f).symm

/-- A sum over `Fin n`, `n = m + d`, is the sum over the first `m` positions plus the sum over the last `d`. -/
theorem sum_fin_split {M : Type*} [AddCommMonoid M] (m d n : Nat) (h : m + d = n) (f : Fin n → M) :
    ∑ i, f i = (∑ i : Fin m, f ⟨i.val, by omega⟩) + ∑ k : Fin d, f ⟨m + k.val, by omega⟩ := by
  subst h
  exact Fin.sum_univ_add f

/-! ## A small natural as a word, read signed -/

/-- The word of a natural below half the word range reads signed as that natural. -/
theorem toInt_ofNat_of_lt {w k : Nat} (h : 2 * k < 2 ^ w) : (BitVec.ofNat w k).toInt = (k : Int) := by
  have hk : k < 2 ^ w := by omega
  rw [BitVec.toInt_eq_toNat_cond, BitVec.toNat_ofNat, Nat.mod_eq_of_lt hk, if_pos h]

/-! ## A scatter of entries -/

/-- The dimension numbers of a scatter of entries: operand `[N]`, scatter indices `[E, 1]`, updates `[E]`; the index
    names the operand's one axis, which the update window does not have. -/
abbrev entryScatter (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The window of update `e` starts at the `e`-th index word, read signed. -/
theorem entryScatter_start {N E w : Nat}
    (wf : ScatterDims.WF ⟨1, ![N]⟩ ⟨2, ![E, 1]⟩ ⟨1, ![E]⟩ [] [0] [0] 1)
    (idx : IVec ⟨2, ![E, 1]⟩ w) (e : Fin E) :
    (entryScatter N E wf).start (ix1 e) idx (0 : Fin 1) = (idx (ix2 e (0 : Fin 1))).toInt := by
  unfold ScatterDims.start
  rw [dif_pos (show (0 : Fin 1) ∈ (entryScatter N E wf).scatterDimsToOperandDims from List.mem_singleton.mpr rfl)]
  have hsi : (entryScatter N E wf).siIdx (ix1 e)
      ⟨List.idxOf (0 : Fin 1) (entryScatter N E wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The operand's one axis has no window coordinate. -/
theorem entryScatter_window {N E : Nat}
    (wf : ScatterDims.WF ⟨1, ![N]⟩ ⟨2, ![E, 1]⟩ ⟨1, ![E]⟩ [] [0] [0] 1) (e : Fin E) :
    (entryScatter N E wf).window (ix1 e) (0 : Fin 1) = 0 := by
  have hn : (0 : Fin 1) ∉ (entryScatter N E wf).sKept :=
    fun h => of_decide_eq_true (List.mem_filter.1 h).2 (List.mem_singleton.mpr rfl)
  unfold ScatterDims.window
  rw [dif_neg hn]

/-- Update `e` lands at entry `i` exactly when the `e`-th index word, read signed, equals `i`. -/
theorem entryScatter_lands_iff {N E w : Nat}
    (wf : ScatterDims.WF ⟨1, ![N]⟩ ⟨2, ![E, 1]⟩ ⟨1, ![E]⟩ [] [0] [0] 1)
    (idx : IVec ⟨2, ![E, 1]⟩ w) (e : Fin E) (i : Fin N) :
    (entryScatter N E wf).resultIdx? (ix1 e) idx = some (ix1 i)
      ↔ (idx (ix2 e (0 : Fin 1))).toInt = (i.val : Int) := by
  constructor
  · intro h
    unfold ScatterDims.resultIdx? at h
    split at h
    · rename_i hb
      have hi := congrFun (Option.some.inj h) (0 : Fin 1)
      have hv : ((entryScatter N E wf).start (ix1 e) idx (0 : Fin 1)
          + ((entryScatter N E wf).window (ix1 e) (0 : Fin 1) : Nat) : Int).toNat = i.val := congrArg Fin.val hi
      have hb0 := (hb (0 : Fin 1)).1
      rw [entryScatter_start, entryScatter_window] at hv hb0
      omega
    · exact absurd h (by simp)
  · intro h
    have hall : ∀ a : Fin 1, 0 ≤ (entryScatter N E wf).start (ix1 e) idx a + ((entryScatter N E wf).window (ix1 e) a : Nat)
        ∧ (entryScatter N E wf).start (ix1 e) idx a + ((entryScatter N E wf).window (ix1 e) a : Nat)
          < ((⟨1, ![N]⟩ : Shape).size a : Nat) := by
      intro a
      obtain rfl : a = 0 := Subsingleton.elim _ _
      rw [entryScatter_start, entryScatter_window, h]
      have hlt : i.val < N := i.isLt
      refine ⟨by omega, ?_⟩
      show ((i.val : Int) + ((0 : Nat) : Int)) < (N : Int)
      omega
    unfold ScatterDims.resultIdx?
    rw [dif_pos hall]
    congr 1
    funext a
    obtain rfl : a = 0 := Subsingleton.elim _ _
    refine Fin.ext ?_
    show ((entryScatter N E wf).start (ix1 e) idx (0 : Fin 1)
      + ((entryScatter N E wf).window (ix1 e) (0 : Fin 1) : Nat) : Int).toNat = i.val
    rw [entryScatter_start, entryScatter_window, h]
    omega

/-- The accumulating scatter of entries read at entry `i`: the operand there plus every update whose index word reads
    `i`, the sum running over all updates. -/
theorem entryScatterAdd_at {N E w : Nat} {φ : FTy}
    (wf : ScatterDims.WF ⟨1, ![N]⟩ ⟨2, ![E, 1]⟩ ⟨1, ![E]⟩ [] [0] [0] 1)
    (v : FVec Ideal ⟨1, ![N]⟩ φ) (idx : IVec ⟨2, ![E, 1]⟩ w) (upd : FVec Ideal ⟨1, ![E]⟩ φ) (i : Fin N) :
    Host.scatterAdd (F := Ideal) (entryScatter N E wf) v idx upd (ix1 i)
      = v (ix1 i) + ∑ e : Fin E, if (idx (ix2 e (0 : Fin 1))).toInt = (i.val : Int) then upd (ix1 e) else 0 := by
  rw [Cert.Lib.ScatterAddRead.scatterAdd_at, sum_idx1]
  congr 1
  exact Finset.sum_congr rfl fun e _ => if_congr (entryScatter_lands_iff wf idx e i) rfl rfl

end Cert.Lib.EntryScatter

end
-- ==== Proof.LibNonnegScale.lean ====
/-
  MULTIPLICATION BY A NONNEGATIVE REAL OVER A FINITE SUM OF EXTENDED REALS, AND THE RECIPROCAL SQUARE ROOT OF A POSITIVE
  EXTENDED REAL.

  On the extended reals multiplication does not distribute over addition in general (`⊤ + ⊥ = ⊥`), but it does when the
  factor is a nonnegative REAL number, whatever the terms are: `(a + b) * c = a * c + b * c` (`add_mul_of_nonneg`), hence
  over any finite sum (`sum_mul_of_nonneg`, and `zero_add_sum_mul_of_nonneg` for a sum accumulated from `0`). No term
  is asked to be finite. The ideal reciprocal square root of a positive extended real is such a factor: it is a
  nonnegative real number (`rsqrt_of_pos`: `⊤ ↦ 0`, a positive real `r ↦ (√r)⁻¹`).
-/
import Idealize.ShloMosaic.PureOps.Ideal
import Mathlib.Data.EReal.Operations

open scoped BigOperators

namespace Cert.Lib.NonnegScale

open Idealize.ShloMosaic

/-- Multiplication on the right by a nonnegative real distributes over a sum of two extended reals. -/
theorem add_mul_of_nonneg (a b : EReal) {c : ℝ} (hc : 0 ≤ c) :
    (a + b) * (c : EReal) = a * (c : EReal) + b * (c : EReal) :=
  EReal.right_distrib_of_nonneg_of_ne_top (EReal.coe_nonneg.2 hc) (EReal.coe_ne_top c) a b

/-- Multiplication on the right by a nonnegative real distributes over a finite sum of extended reals. -/
theorem sum_mul_of_nonneg {ι : Type*} (s : Finset ι) (f : ι → EReal) {c : ℝ} (hc : 0 ≤ c) :
    (∑ j ∈ s, f j) * (c : EReal) = ∑ j ∈ s, f j * (c : EReal) := by
  classical
  induction s using Finset.induction_on with
  | empty => simp
  | insert a s ha ih => rw [Finset.sum_insert ha, Finset.sum_insert ha, add_mul_of_nonneg _ _ hc, ih]

/-- The same for a sum accumulated from `0`. -/
theorem zero_add_sum_mul_of_nonneg {ι : Type*} (s : Finset ι) (f : ι → EReal) {c : ℝ} (hc : 0 ≤ c) :
    (0 + ∑ j ∈ s, f j) * (c : EReal) = 0 + ∑ j ∈ s, f j * (c : EReal) := by
  rw [zero_add, zero_add, sum_mul_of_nonneg s f hc]

/-- The ideal reciprocal square root of a positive extended real is a nonnegative real number. -/
theorem rsqrt_of_pos {x : EReal} (hx : 0 < x) : ∃ r : ℝ, 0 ≤ r ∧ Ideal.rsqrt x = (r : EReal) := by
  induction x using EReal.rec with
  | bot => exact absurd hx (not_lt_bot)
  | top => exact ⟨0, le_refl 0, rfl⟩
  | coe r =>
    have hr : 0 < r := EReal.coe_pos.1 hx
    refine ⟨(Real.sqrt r)⁻¹, inv_nonneg.2 (Real.sqrt_nonneg r), ?_⟩
    show (if r < 0 then (⊥ : EReal) else if r = 0 then ⊤ else ((Real.sqrt r)⁻¹ : ℝ)) = _
    rw [if_neg (not_lt.2 hr.le), if_neg hr.ne']

end Cert.Lib.NonnegScale
-- ==== Proof.DegreeFactor.lean ====
/-
  THE TWO PROGRAMS' DEGREE FACTORS AGREE.

  At a node `i` both programs take the reciprocal square root of the larger of one and a count.  The first program counts
  the edges whose destination word reads `i` and adds one; the second appends one self-loop per node to the edges — the
  `k`-th self-loop's word is the natural `k` — and counts the words that read `i` among all of them.  The second count
  splits into the edges' part, equal to the first program's count word by word, and the self-loops' part, where exactly
  the `i`-th self-loop reads `i`: that part is one.  So the two arguments of the reciprocal square root are equal
  (`disAt_eq`).  The larger of one and anything is positive, so the factor is a nonnegative real number
  (`kDisAt_nonneg_real`).
-/
import proofs.«121169_j9388798509588_2_alg».proof.Proof.Layer
import proofs.«121169_j9388798509588_2_alg».proof.Proof.LibEntryScatter
import proofs.«121169_j9388798509588_2_alg».proof.Proof.LibNonnegScale
import Idealize.ShloMosaic.Lib.IdealHost

noncomputable section

open scoped BigOperators

namespace Cert.Gcn

open Idealize.ShloMosaic Idealize.ShloMosaic.ValueIdx
open Cert.Lib.EntryScatter

/-- The count of the positions of a column of index words whose word reads `i`, as an extended real. -/
def arrivals {E : Nat} (c : IVec (⟨2, ![E, 1]⟩ : Shape) 32) (i : Fin 100000) : EReal :=
  ∑ e : Fin E, if (c (ix2 e (0 : Fin 1))).toInt = (i.val : Int) then (1 : EReal) else 0

section Kernel
open Cert.KernelIdeal Cert.KernelIdeal.Facts₀

/-- The first program's factor at node `i`: the reciprocal square root of max(arrivals + 1, 1). -/
theorem kDisAt_apply (cK : EdgeCol) (i : Fin 100000) :
    kDisAt cK (ix1 i) = Ideal.rsqrt (max ((0 + arrivals cK i) + 1) 1) := by
  have hz : broadcastInDim S100000 ![] bcast_S_S100000 (constant (F := Ideal) S_ .f32 0x00000000#32) (ix1 i) = 0 := by
    rw [broadcastInDim_scalar_apply, constant_apply, Ideal.ofBits_zero_f32]
  have ho : broadcastInDim S100000 ![] bcast_S_S100000 (constant (F := Ideal) S_ .f32 0x3F800000#32) (ix1 i) = 1 := by
    rw [broadcastInDim_scalar_apply, constant_apply, Ideal.ofBits_one_f32]
  have hu : ∀ e : Fin 1600000,
      broadcastInDim S1600000 ![] bcast_S_S1600000 (constant (F := Ideal) S_ .f32 0x3F800000#32) (ix1 e) = 1 := by
    intro e; rw [broadcastInDim_scalar_apply, constant_apply, Ideal.ofBits_one_f32]
  unfold kDisAt arrivals
  rw [show ∀ x : NodeVec, Host.rsqrt (F := Ideal) x (ix1 i) = Ideal.rsqrt (x (ix1 i)) from fun _ => rfl,
    maximumf_apply, addf_apply,
    show scatter_S100000_S1600000x1_S1600000_n_0_0_1
      = entryScatter 100000 1600000 scatter_S100000_S1600000x1_S1600000_n_0_0_1_wf from rfl,
    entryScatterAdd_at, hz, ho]
  simp only [hu]

end Kernel

section Reference
open Cert.ReferenceIdeal Cert.ReferenceIdeal.Facts₀

/-- The second program's factor at node `i`: the reciprocal square root of max(arrivals, 1), self-loops included. -/
theorem rDisAt_apply (cR : LoopCol) (i : Fin 100000) :
    rDisAt cR (ix1 i) = Ideal.rsqrt (max (0 + arrivals cR i) 1) := by
  have hz : broadcastInDim S100000 ![] bcast_S_S100000 (constant (F := Ideal) S_ .f32 0x00000000#32) (ix1 i) = 0 := by
    rw [broadcastInDim_scalar_apply, constant_apply, Ideal.ofBits_zero_f32]
  have ho : broadcastInDim S100000 ![] bcast_S_S100000 (constant (F := Ideal) S_ .f32 0x3F800000#32) (ix1 i) = 1 := by
    rw [broadcastInDim_scalar_apply, constant_apply, Ideal.ofBits_one_f32]
  have hu : ∀ e : Fin 1700000,
      broadcastInDim S1700000 ![] bcast_S_S1700000 (constant (F := Ideal) S_ .f32 0x3F800000#32) (ix1 e) = 1 := by
    intro e; rw [broadcastInDim_scalar_apply, constant_apply, Ideal.ofBits_one_f32]
  unfold rDisAt arrivals
  rw [show ∀ x : NodeVec, Host.rsqrt (F := Ideal) x (ix1 i) = Ideal.rsqrt (x (ix1 i)) from fun _ => rfl,
    maximumf_apply,
    show scatter_S100000_S1700000x1_S1700000_n_0_0_1
      = entryScatter 100000 1700000 scatter_S100000_S1700000x1_S1700000_n_0_0_1_wf from rfl,
    entryScatterAdd_at, hz, ho]
  simp only [hu]

end Reference

/-- With the edges' words equal and the `k`-th self-loop's word the natural `k`, the second column's arrivals at a
    node are the first column's plus one. -/
theorem arrivals_loop (cK : EdgeCol) (cR : LoopCol)
    (hedge : ∀ e : Fin 1600000, cR (ix2 (⟨e.val, by omega⟩ : Fin 1700000) (0 : Fin 1)) = cK (ix2 e (0 : Fin 1)))
    (hloop : ∀ k : Fin 100000, cR (ix2 (⟨1600000 + k.val, by omega⟩ : Fin 1700000) (0 : Fin 1)) = BitVec.ofNat 32 k.val)
    (i : Fin 100000) : arrivals cR i = arrivals cK i + 1 := by
  unfold arrivals
  rw [sum_fin_split 1600000 100000 1700000 (by norm_num)]
  refine congrArg₂ (· + ·) (Finset.sum_congr rfl fun e _ => ?_) ?_
  · rw [hedge e]
  · have hk : ∀ k : Fin 100000,
        (if (cR (ix2 (⟨1600000 + k.val, by omega⟩ : Fin 1700000) (0 : Fin 1))).toInt = (i.val : Int) then (1 : EReal) else 0)
          = if k = i then (1 : EReal) else 0 := by
      intro k
      have hlt : k.val < 100000 := k.isLt
      rw [hloop k, toInt_ofNat_of_lt (by omega)]
      refine if_congr ?_ rfl rfl
      constructor
      · intro h; exact Fin.ext (by omega)
      · intro h; rw [h]
    rw [Finset.sum_congr rfl fun k _ => hk k, Finset.sum_ite_eq' Finset.univ i (fun _ => (1 : EReal)),
      if_pos (Finset.mem_univ i)]

theorem disAt_eq (cK : EdgeCol) (cR : LoopCol)
    (hedge : ∀ e : Fin 1600000, cR (ix2 (⟨e.val, by omega⟩ : Fin 1700000) (0 : Fin 1)) = cK (ix2 e (0 : Fin 1)))
    (hloop : ∀ k : Fin 100000, cR (ix2 (⟨1600000 + k.val, by omega⟩ : Fin 1700000) (0 : Fin 1)) = BitVec.ofNat 32 k.val) :
    kDisAt cK = rDisAt cR := by
  funext p
  obtain ⟨i, rfl⟩ : ∃ i : Fin 100000, p = ix1 i := ⟨p 0, eq_ix1 p⟩
  rw [kDisAt_apply, rDisAt_apply, arrivals_loop cK cR hedge hloop i, zero_add, zero_add]

theorem kDisAt_nonneg_real (cK : EdgeCol) (i : Fin 100000) :
    ∃ r : ℝ, 0 ≤ r ∧ kDisAt cK (ix1 i) = (r : EReal) := by
  rw [kDisAt_apply]
  exact Cert.Lib.NonnegScale.rsqrt_of_pos (lt_max_of_lt_right zero_lt_one)

end Cert.Gcn

end
-- ==== Proof.LibRowLanding.lean ====
/-
  WHERE A SCATTER OF ROWS LANDS, EXACTLY; INDEX WORDS THAT ARE SMALL NATURALS; THREE SMALL READS.

  A scatter of the rows of updates `[E, C]` into a table `[N, C]` by a column `[E, 1]` of index words sends the update
  entry `(e, q)` to the table entry `(i, c)` exactly when the `e`-th index word, read signed, is `i` and `q = c`
  (`rowScatter_lands_iff`).  Hence the sum of all the updates that land at `(i, c)` is the sum, over the rows `e` whose
  index word reads `i`, of the updates' entry `(e, c)` (`sum_landing`); the values may lie in any commutative monoid.

  A word `BitVec.ofNat w k` with `2 k < 2 ^ w` reads signed as `k` (`toInt_ofNat_small`); a signed value that is a row
  `i < N` stays `i` when clamped into `[0, N − 1]` (`clamp_of_toInt_eq`).

  A sum over `Fin n` with `n = m + d` is the sum of its first `m` terms plus the sum of its last `d` (`sum_fin_split`).

  Reads: a scalar splat to any shape reads the scalar (`splat_apply`); a column `[E, 1]` repeated across `C` columns
  reads its entry `e` at `(e, q)` (`column_across_apply`); a vector `[b]` laid as the row `[1, b]` reads its entry `q`
  at `(0, q)` (`row_of_vec_apply`).
-/
import Idealize.ShloMosaic.Lib.ValueIdx
import Idealize.ShloMosaic.Lib.Pipeline.Value
import proofs.«121169_j9388798509588_2_alg».proof.Proof.LibEdgeRows

namespace Cert.Lib.RowLanding

open Idealize.ShloMosaic Idealize.ShloMosaic.ValueIdx Cert.Lib.EdgeRows

/-! ## Where a scatter of rows lands -/

/-- The update entry `(e, q)` lands at the table entry `(i, c)` exactly when the `e`-th index word, read signed, is
    `i` and the columns agree. -/
theorem rowScatter_lands_iff {N E C w : Nat}
    (wf : ScatterDims.WF ⟨2, ![N, C]⟩ ⟨2, ![E, 1]⟩ ⟨2, ![E, C]⟩ [1] [0] [0] 1)
    (idx : IVec ⟨2, ![E, 1]⟩ w) (e : Fin E) (q : Fin C) (i : Fin N) (c : Fin C) :
    (rowScatter N E C wf).resultIdx? (ix2 e q) idx = some (ix2 i c)
      ↔ (idx (ix2 e (0 : Fin 1))).toInt = (i.val : Int) ∧ q = c := by
  constructor
  · intro h
    obtain ⟨h0, h1⟩ := rowScatter_lands wf idx e q (ix2 i c) h
    exact ⟨h0, Fin.ext h1.symm⟩
  · rintro ⟨h0, rfl⟩
    have h02 : 0 < 2 := Nat.zero_lt_two
    have h12 : 1 < 2 := Nat.one_lt_two
    have hi := i.isLt
    have hq := q.isLt
    unfold ScatterDims.resultIdx?
    split
    · congr 1
      funext a
      refine Fin.ext ?_
      match a with
      | ⟨0, _⟩ =>
        show ((rowScatter N E C wf).start (ix2 e q) idx ⟨0, h02⟩
          + ((rowScatter N E C wf).window (ix2 e q) ⟨0, h02⟩ : Nat) : Int).toNat = i.val
        rw [rowScatter_start_zero, rowScatter_window_zero, h0]
        omega
      | ⟨1, _⟩ =>
        show ((rowScatter N E C wf).start (ix2 e q) idx ⟨1, h12⟩
          + ((rowScatter N E C wf).window (ix2 e q) ⟨1, h12⟩ : Nat) : Int).toNat = q.val
        rw [rowScatter_start_one, rowScatter_window_one]
        omega
    · rename_i hn
      refine absurd (fun a => ?_) hn
      match a with
      | ⟨0, _⟩ =>
        show 0 ≤ (rowScatter N E C wf).start (ix2 e q) idx ⟨0, h02⟩
            + ((rowScatter N E C wf).window (ix2 e q) ⟨0, h02⟩ : Nat)
          ∧ (rowScatter N E C wf).start (ix2 e q) idx ⟨0, h02⟩
            + ((rowScatter N E C wf).window (ix2 e q) ⟨0, h02⟩ : Nat) < ((N : Nat) : Int)
        rw [rowScatter_start_zero, rowScatter_window_zero, h0]
        omega
      | ⟨1, _⟩ =>
        show 0 ≤ (rowScatter N E C wf).start (ix2 e q) idx ⟨1, h12⟩
            + ((rowScatter N E C wf).window (ix2 e q) ⟨1, h12⟩ : Nat)
          ∧ (rowScatter N E C wf).start (ix2 e q) idx ⟨1, h12⟩
            + ((rowScatter N E C wf).window (ix2 e q) ⟨1, h12⟩ : Nat) < ((C : Nat) : Int)
        rw [rowScatter_start_one, rowScatter_window_one]
        omega

/-- The sum of all the updates that land at `(i, c)`: over the rows whose index word reads `i`, the updates' entry in
    column `c`. -/
theorem sum_landing {N E C w : Nat} {M : Type*} [AddCommMonoid M]
    (wf : ScatterDims.WF ⟨2, ![N, C]⟩ ⟨2, ![E, 1]⟩ ⟨2, ![E, C]⟩ [1] [0] [0] 1)
    (idx : IVec ⟨2, ![E, 1]⟩ w) (upd : (⟨2, ![E, C]⟩ : Shape).Idx → M) (i : Fin N) (c : Fin C)
    [∀ j, Decidable ((rowScatter N E C wf).resultIdx? j idx = some (ix2 i c))] :
    (∑ j, if (rowScatter N E C wf).resultIdx? j idx = some (ix2 i c) then upd j else 0)
      = ∑ e : Fin E, if (idx (ix2 e (0 : Fin 1))).toInt = (i.val : Int) then upd (ix2 e c) else 0 := by
  rw [sum_idx2]
  refine Finset.sum_congr rfl fun e _ => ?_
  by_cases h : (idx (ix2 e (0 : Fin 1))).toInt = (i.val : Int)
  · rw [if_pos h, Finset.sum_eq_single c]
    · rw [if_pos ((rowScatter_lands_iff wf idx e c i c).2 ⟨h, rfl⟩)]
    · intro q _ hq
      rw [if_neg (fun hl => hq ((rowScatter_lands_iff wf idx e q i c).1 hl).2)]
    · intro hc
      exact absurd (Finset.mem_univ c) hc
  · rw [if_neg h]
    refine Finset.sum_eq_zero fun q _ => ?_
    rw [if_neg (fun hl => h ((rowScatter_lands_iff wf idx e q i c).1 hl).1)]

/-! ## Index words that are small naturals -/

/-- A word made from a natural below half the word range reads signed as that natural. -/
theorem toInt_ofNat_small {w : Nat} (k : Nat) (h : 2 * k < 2 ^ w) : (BitVec.ofNat w k).toInt = (k : Int) := by
  have hk : k < 2 ^ w := by omega
  have hn : (BitVec.ofNat w k).toNat = k := by rw [BitVec.toNat_ofNat, Nat.mod_eq_of_lt hk]
  rw [BitVec.toInt_eq_toNat_of_lt (by rw [hn]; exact h), hn]

/-- A signed value that is a row `i < N` stays `i` when clamped into `[0, N − 1]`. -/
theorem clamp_of_toInt_eq {N : Nat} (z : Int) (i : Nat) (hi : i < N) (h : z = (i : Int)) :
    min z.toNat (N - 1) = i := by
  subst h
  omega

/-! ## A sum over `Fin n` split at `m` -/

/-- With `n = m + d`, a sum over `Fin n` is the sum of its first `m` terms plus the sum of its last `d`. -/
theorem sum_fin_split {M : Type*} [AddCommMonoid M] {m d n : Nat} (h : m + d = n) (f : Fin n → M) :
    ∑ i, f i = (∑ i : Fin m, f ⟨i.val, by omega⟩) + ∑ k : Fin d, f ⟨m + k.val, by omega⟩ := by
  subst h
  rw [Fin.sum_univ_add]
  rfl

/-! ## Three small reads -/

/-- A scalar splat to any shape reads the scalar. -/
theorem splat_apply {α : Type} {t : Shape}
    (hb : (⟨0, ![]⟩ : Shape).BroadcastsInDim t (![] : Fin 0 → Fin t.rank))
    (v : (⟨0, ![]⟩ : Shape).Idx → α) (j : t.Idx) :
    broadcastInDim t (![] : Fin 0 → Fin t.rank) hb v j = v ix0 :=
  broadcastInDim_apply _ hb v j ix0 fun a => a.elim0

/-- A column `[E, 1]` repeated across `C` columns reads, at `(e, q)`, the column's entry `e`. -/
theorem column_across_apply {α : Type} {E C : Nat}
    (hb : (⟨2, ![E, 1]⟩ : Shape).BroadcastsInDim ⟨2, ![E, C]⟩ (![0, 1] : Fin 2 → Fin 2))
    (v : (⟨2, ![E, 1]⟩ : Shape).Idx → α) (e : Fin E) (q : Fin C) :
    broadcastInDim ⟨2, ![E, C]⟩ (![0, 1] : Fin 2 → Fin 2) hb v (ix2 e q) = v (ix2 e (0 : Fin 1)) := by
  refine broadcastInDim_apply _ hb v (ix2 e q) (ix2 e (0 : Fin 1)) fun ax => ?_
  match ax with
  | ⟨0, _⟩ =>
    show e.val = if E = 1 then 0 else e.val
    split
    · have := e.isLt; omega
    · rfl
  | ⟨1, _⟩ => rfl

/-- A vector `[b]` laid as the row `[1, b]` along the last axis reads, at `(0, q)`, the vector's entry `q`. -/
theorem row_of_vec_apply {α : Type} {b : Nat} (x : (⟨1, ![b]⟩ : Shape).Idx → α)
    (h : (⟨1, ![b]⟩ : Shape).BroadcastsInDim ⟨2, ![1, b]⟩ (![1] : Fin 1 → Fin 2)) (u : Fin 1) (q : Fin b) :
    broadcastInDim ⟨2, ![1, b]⟩ (![1] : Fin 1 → Fin 2) h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

end Cert.Lib.RowLanding
-- ==== Proof.Aggregate.lean ====
/-
  The two programs' layers agree once their index columns and node factors correspond.

  Write g(w) for the node an index word w names to a gather: w read signed, clamped into [0, 99999].

  At an entry (i, c) the first program's layer is
    ((0 + ∑ over the edges e whose destination word reads i of lin(g(src e), c) · dis(g(src e))) + lin(i, c) · dis(i)) · dis(i) + b(c),
  and the second program's is
    (0 + ∑ over the edges and self-loops e whose destination word reads i of lin(g(src e), c) · (dis(g(src e)) · dis(g(dst e)))) + b(c).
  The second sum splits into the edges, whose words are the first program's and whose destination, when it reads i,
  names node i, and the self-loops, of which exactly the i-th arrives at i, with weight dis(i) · dis(i).  The node
  factor dis(i) is a nonnegative real, so multiplying by it distributes over the first program's sum whatever the
  features are, and the two sides agree summand by summand.
-/
import proofs.«121169_j9388798509588_2_alg».proof.Proof.Layer
import proofs.«121169_j9388798509588_2_alg».proof.Proof.LibScatterAddRead
import proofs.«121169_j9388798509588_2_alg».proof.Proof.LibEdgeRows
import proofs.«121169_j9388798509588_2_alg».proof.Proof.LibNonnegScale
import proofs.«121169_j9388798509588_2_alg».proof.Proof.LibDenseBias
import proofs.«121169_j9388798509588_2_alg».proof.Proof.LibRowLanding
import Idealize.ShloMosaic.PureOps.Ideal.Laws

noncomputable section

namespace Cert.Gcn

open Idealize.ShloMosaic Idealize.ShloMosaic.ValueIdx
open Cert.Lib.EdgeRows Cert.Lib.RowLanding Cert.Lib.ScatterAddRead Cert.Lib.NonnegScale Cert.Lib.DenseBias

/-- The node an index word names to a gather: the word read signed, clamped into [0, 99999]. -/
def node (w : BitVec 32) : Fin 100000 := ⟨min w.toInt.toNat (100000 - 1), by omega⟩

/-- A word that reads signed as node i names node i. -/
theorem node_of_toInt_eq (w : BitVec 32) (i : Fin 100000) (h : w.toInt = (i.val : Int)) : node w = i :=
  Fin.ext (clamp_of_toInt_eq _ _ i.isLt h)

section Kernel
open Cert.KernelIdeal Cert.KernelIdeal.Facts₀

/-- The first program's sum over arriving edges at (i, c). -/
theorem kAggAt_apply (pre : NodeMat) (sK dK : EdgeCol) (i : Fin 100000) (c : Fin 64) :
    kAggAt pre sK dK (ix2 i c)
      = 0 + ∑ e : Fin 1600000, if (dK (ix2 e (0 : Fin 1))).toInt = (i.val : Int)
          then pre (ix2 (node (sK (ix2 e (0 : Fin 1)))) c) else 0 := by
  have hS : scatter_S100000x64_S1600000x1_S1600000x64_1_0_0_1
      = rowScatter 100000 1600000 64 scatter_S100000x64_S1600000x1_S1600000x64_1_0_0_1_wf := rfl
  have hG : gather_S100000x64_S1600000x1_S1600000x64_1_0_n_n_0_1_164
      = rowGather 100000 1600000 64 gather_S100000x64_S1600000x1_S1600000x64_1_0_n_n_0_1_164_wf := rfl
  unfold kAggAt
  rw [scatterAdd_at, splat_apply, constant_apply, Ideal.ofBits_zero_f32, hS, hG, sum_landing]
  refine congrArg (0 + ·) (Finset.sum_congr rfl fun e _ => ?_)
  rw [rowGather_apply (by norm_num)]
  rfl

/-- The first program's layer at (i, c). -/
theorem kCoreAt_apply (lin : NodeMat) (sK dK : EdgeCol) (dis : NodeVec) (b : Bias) (i : Fin 100000) (c : Fin 64) :
    kCoreAt lin sK dK dis b (ix2 i c)
      = ((0 + ∑ e : Fin 1600000, if (dK (ix2 e (0 : Fin 1))).toInt = (i.val : Int)
            then lin (ix2 (node (sK (ix2 e (0 : Fin 1)))) c) * dis (ix1 (node (sK (ix2 e (0 : Fin 1))))) else 0)
          + lin (ix2 i c) * dis (ix1 i)) * dis (ix1 i) + b (ix1 c) := by
  show (kAggAt (kPreAt lin dis) sK dK (ix2 i c) + kPreAt lin dis (ix2 i c)) * dis (ix1 i) + b (ix1 c) = _
  rw [kAggAt_apply]
  rfl

end Kernel

section Reference
open Cert.ReferenceIdeal Cert.ReferenceIdeal.Facts₀

/-- The weight of edge e: the product of its two end nodes' factors. -/
theorem rNormAt_apply (sR dR : LoopCol) (dis : NodeVec) (e : Fin 1700000) :
    rNormAt sR dR dis (ix1 e)
      = dis (ix1 (node (sR (ix2 e (0 : Fin 1))))) * dis (ix1 (node (dR (ix2 e (0 : Fin 1))))) := by
  have hG : gather_S100000_S1700000x1_S1700000_n_0_n_n_0_1_1
      = entryGather 100000 1700000 gather_S100000_S1700000x1_S1700000_n_0_n_n_0_1_1_wf := rfl
  unfold rNormAt
  rw [mulf_apply, hG, entryGather_apply (by norm_num), entryGather_apply (by norm_num)]
  rfl

/-- The second program's layer at (i, c). -/
theorem rCoreAt_apply (lin : NodeMat) (sR dR : LoopCol) (dis : NodeVec) (b : Bias) (i : Fin 100000) (c : Fin 64) :
    rCoreAt lin sR dR dis b (ix2 i c)
      = (0 + ∑ e : Fin 1700000, if (dR (ix2 e (0 : Fin 1))).toInt = (i.val : Int)
            then lin (ix2 (node (sR (ix2 e (0 : Fin 1)))) c)
              * (dis (ix1 (node (sR (ix2 e (0 : Fin 1))))) * dis (ix1 (node (dR (ix2 e (0 : Fin 1)))))) else 0)
          + b (ix1 c) := by
  have hS : scatter_S100000x64_S1700000x1_S1700000x64_1_0_0_1
      = rowScatter 100000 1700000 64 scatter_S100000x64_S1700000x1_S1700000x64_1_0_0_1_wf := rfl
  have hG : gather_S100000x64_S1700000x1_S1700000x64_1_0_n_n_0_1_164
      = rowGather 100000 1700000 64 gather_S100000x64_S1700000x1_S1700000x64_1_0_n_n_0_1_164_wf := rfl
  unfold rCoreAt
  rw [addf_apply, scatterAdd_at, splat_apply, constant_apply, Ideal.ofBits_zero_f32, hS, hG, sum_landing,
    row_down_host_entry, row_of_vec_apply]
  refine congrArg (· + b (ix1 c)) (congrArg (0 + ·) (Finset.sum_congr rfl fun e _ => ?_))
  rw [mulf_apply, rowGather_apply (by norm_num), column_across_apply, column_apply, rNormAt_apply]
  rfl

end Reference

/-- The second program's sum splits into the edges, with the first program's words, and the self-loops, of which
    exactly the i-th arrives at node i. -/
theorem loop_sum_split (lin : NodeMat) (sK dK : EdgeCol) (sR dR : LoopCol) (dis : NodeVec)
    (hs_edge : ∀ e : Fin 1600000, sR (ix2 (⟨e.val, by omega⟩ : Fin 1700000) (0 : Fin 1)) = sK (ix2 e (0 : Fin 1)))
    (hs_loop : ∀ k : Fin 100000, sR (ix2 (⟨1600000 + k.val, by omega⟩ : Fin 1700000) (0 : Fin 1)) = BitVec.ofNat 32 k.val)
    (hd_edge : ∀ e : Fin 1600000, dR (ix2 (⟨e.val, by omega⟩ : Fin 1700000) (0 : Fin 1)) = dK (ix2 e (0 : Fin 1)))
    (hd_loop : ∀ k : Fin 100000, dR (ix2 (⟨1600000 + k.val, by omega⟩ : Fin 1700000) (0 : Fin 1)) = BitVec.ofNat 32 k.val)
    (i : Fin 100000) (c : Fin 64) :
    (∑ e : Fin 1700000, if (dR (ix2 e (0 : Fin 1))).toInt = (i.val : Int)
        then lin (ix2 (node (sR (ix2 e (0 : Fin 1)))) c)
          * (dis (ix1 (node (sR (ix2 e (0 : Fin 1))))) * dis (ix1 (node (dR (ix2 e (0 : Fin 1)))))) else 0)
      = (∑ e : Fin 1600000, if (dK (ix2 e (0 : Fin 1))).toInt = (i.val : Int)
          then lin (ix2 (node (sK (ix2 e (0 : Fin 1)))) c)
            * (dis (ix1 (node (sK (ix2 e (0 : Fin 1))))) * dis (ix1 i)) else 0)
        + lin (ix2 i c) * (dis (ix1 i) * dis (ix1 i)) := by
  have hword : ∀ k : Fin 100000, (BitVec.ofNat 32 k.val).toInt = (k.val : Int) := fun k =>
    toInt_ofNat_small k.val (by have := k.isLt; omega)
  rw [sum_fin_split (show 1600000 + 100000 = 1700000 from rfl)]
  refine congrArg₂ (· + ·) (Finset.sum_congr rfl fun e _ => ?_) ?_
  · rw [hd_edge e, hs_edge e]
    by_cases h : (dK (ix2 e (0 : Fin 1))).toInt = (i.val : Int)
    · rw [if_pos h, if_pos h, node_of_toInt_eq _ i h]
    · rw [if_neg h, if_neg h]
  · rw [Finset.sum_eq_single i]
    · rw [hd_loop i, hs_loop i, if_pos (hword i), node_of_toInt_eq _ i (hword i)]
    · intro k _ hk
      rw [hd_loop k, if_neg]
      rw [hword k]
      exact fun h => hk (Fin.ext (Int.ofNat.inj h))
    · intro h
      exact absurd (Finset.mem_univ i) h

/-- The two programs' layers agree once the index columns correspond (the second program's are the first's followed
    by the self-loops' node numbers) and the node factors are nonnegative reals. -/
theorem coreAt_eq (lin : NodeMat) (sK dK : EdgeCol) (sR dR : LoopCol) (dis : NodeVec) (b : Bias)
    (hs_edge : ∀ e : Fin 1600000, sR (ix2 (⟨e.val, by omega⟩ : Fin 1700000) (0 : Fin 1)) = sK (ix2 e (0 : Fin 1)))
    (hs_loop : ∀ k : Fin 100000, sR (ix2 (⟨1600000 + k.val, by omega⟩ : Fin 1700000) (0 : Fin 1)) = BitVec.ofNat 32 k.val)
    (hd_edge : ∀ e : Fin 1600000, dR (ix2 (⟨e.val, by omega⟩ : Fin 1700000) (0 : Fin 1)) = dK (ix2 e (0 : Fin 1)))
    (hd_loop : ∀ k : Fin 100000, dR (ix2 (⟨1600000 + k.val, by omega⟩ : Fin 1700000) (0 : Fin 1)) = BitVec.ofNat 32 k.val)
    (hreal : ∀ i : Fin 100000, ∃ r : ℝ, 0 ≤ r ∧ dis (ix1 i) = (r : EReal)) :
    kCoreAt lin sK dK dis b = rCoreAt lin sR dR dis b := by
  funext p
  obtain ⟨i, c, rfl⟩ : ∃ (i : Fin 100000) (c : Fin 64), p = ix2 i c := ⟨p 0, p 1, eq_ix2 p⟩
  obtain ⟨r, hr, hdis⟩ := hreal i
  rw [kCoreAt_apply, rCoreAt_apply, loop_sum_split lin sK dK sR dR dis hs_edge hs_loop hd_edge hd_loop i c, hdis,
    add_mul_of_nonneg _ _ hr, zero_add_sum_mul_of_nonneg _ _ hr, zero_add, zero_add]
  refine congrArg (· + b (ix1 c)) (congrArg₂ (· + ·) (Finset.sum_congr rfl fun e _ => ?_) (mul_assoc _ _ _))
  by_cases h : (dK (ix2 e (0 : Fin 1))).toInt = (i.val : Int)
  · rw [if_pos h, if_pos h, mul_assoc]
  · rw [if_neg h, if_neg h, zero_mul]

end Cert.Gcn

end
-- ==== Proof.Bridge.lean ====
/-
  The two layers agree, and the kernel program's result is two of its layers.

  `core_eq`: on any rows `lin`, the kernel's layer (scale the rows by the node factors, aggregate over the arriving
  edges, add the node's own scaled row, scale again, add the bias) equals the reference's (append a self-loop per node,
  weight every edge by the product of its end nodes' factors, aggregate, add the bias): the index columns correspond
  (the reference's are the kernel's followed by the self-loops'), the degree factors agree, and a node factor is a
  nonnegative real, which distributes over the aggregate whatever the rows hold.
  `kernel_value`: the result buffer's closed form, read through the regions' closed forms, is the kernel's layer applied
  to the second product of the maximum with zero of the kernel's layer applied to the first product.
-/
import proofs.«121169_j9388798509588_2_alg».proof.Proof.KernelValue
import proofs.«121169_j9388798509588_2_alg».proof.Proof.KernelForm
import proofs.«121169_j9388798509588_2_alg».proof.Proof.IndexWords
import proofs.«121169_j9388798509588_2_alg».proof.Proof.DegreeFactor
import proofs.«121169_j9388798509588_2_alg».proof.Proof.Aggregate

noncomputable section

namespace Cert.Gcn

open Idealize.ShloMosaic Idealize.ShloMosaic.TcCoe Idealize.ShloMosaic.ValueIdx

/-- The two programs' layers are one function of the rows, the edge list and the bias. -/
theorem core_eq (lin : NodeMat) (ei : Edges) (b : Bias) : kCore lin ei b = rCore lin ei b := by
  have hdis : kDis ei = rDis ei := disAt_eq _ _ (dst_edge ei) (dst_loop ei)
  unfold kCore rCore
  rw [← hdis]
  exact coreAt_eq lin _ _ _ _ _ b (src_edge ei) (src_loop ei) (dst_edge ei) (dst_loop ei)
    (fun i => kDisAt_nonneg_real _ i)

section Kernel
open Cert.KernelIdeal Cert.KernelIdeal.Regions Cert.KernelIdeal.Chain

variable (m : (ℓ : Loc nD τ sig) → Buf (Elt Ideal) ℓ) (c : Dev nD)

/-- The kernel program's result is its layer, applied twice with the maximum with zero between. -/
theorem kernel_value :
    Chain.result m c
      = kCore (dot (relu (kCore (dot (m ((c : Thread nD τ).loc main_arg0)) (m ((c : Thread nD τ).loc main_arg2)))
            (edges m c) (m ((c : Thread nD τ).loc main_arg3)))) (m ((c : Thread nD τ).loc main_arg4)))
          (edges m c) (m ((c : Thread nD τ).loc main_arg5)) := by
  have h1 : Chain.pre1 m c
      = kPreAt (dot (m ((c : Thread nD τ).loc main_arg0)) (m ((c : Thread nD τ).loc main_arg2))) (kDis (edges m c)) :=
    scaledProduct_eq _ _ _
  have h2 : Chain.hid m c
      = relu (kCore (dot (m ((c : Thread nD τ).loc main_arg0)) (m ((c : Thread nD τ).loc main_arg2)))
          (edges m c) (m ((c : Thread nD τ).loc main_arg3))) := by
    show postScaleRelu (kAggAt (Chain.pre1 m c) (kCol (kSrc (edges m c))) (kCol (kDst (edges m c)))) (Chain.pre1 m c)
      (kDisCol (kDis (edges m c))) (m ((c : Thread nD τ).loc main_arg3)) = _
    rw [h1]
    exact postScaleRelu_eq _ _ _ _ _
  have h3 : Chain.pre2 m c = kPreAt (dot (Chain.hid m c) (m ((c : Thread nD τ).loc main_arg4))) (kDis (edges m c)) :=
    scaledProduct_eq _ _ _
  show postScale (kAggAt (Chain.pre2 m c) (kCol (kSrc (edges m c))) (kCol (kDst (edges m c)))) (Chain.pre2 m c)
    (kDisCol (kDis (edges m c))) (m ((c : Thread nD τ).loc main_arg5)) = _
  rw [h3, h2]
  exact postScale_eq _ _ _ _ _

end Kernel

end Cert.Gcn

end
-- ==== Proof.RefValue.lean ====
/-
  The second program's value is two layers.

  The generated module names the value of every operation of the second program as a function of the program's
  arguments.  Read in program order, the operations are: the product of the features with the first weight matrix; the
  source and destination words with the self-loops appended, wrapped and turned into columns; the degree factor; each
  edge's weight; the weighted source rows summed at their destinations, plus the bias — one layer —; the maximum with
  zero; and the same once more from that result, with the second weight matrix and bias.  Each group of operations is
  the corresponding function of the layer's definition, spelled the same way, so every identification below holds by
  unfolding the names on both sides.
-/
import proofs.«121169_j9388798509588_2_alg».proof.Proof.Layer
import proofs.«121169_j9388798509588_2_alg».proof.Proof.Gen.ReferenceIdeal.Read

namespace Cert.Gcn

open Idealize.ShloMosaic Idealize.ShloMosaic.ValueIdx
open Cert.ReferenceIdeal.Read

/-! ## The first layer -/

/-- The features times the first weight matrix. -/
theorem v0_eq (x : NodeMat) (W1 : Weights) : val_main_v0 (F := Ideal) x W1 = dot x W1 := rfl

/-- The source words with the self-loops appended. -/
theorem v4_eq (ei : Edges) : val_main_v4 (F := Ideal) ei = rSrc ei := rfl

/-- The destination words with the self-loops appended. -/
theorem v7_eq (ei : Edges) : val_main_v7 (F := Ideal) ei = rDst ei := rfl

/-- The destination column the degree count scatters by. -/
theorem v14_eq (ei : Edges) : val_main_v14 (F := Ideal) ei = rCol (rDst ei) := by
  rw [← v7_eq]
  rfl

/-- The degree factor. -/
theorem v19_eq (ei : Edges) : val_main_v19 (F := Ideal) ei = rDis ei := by
  unfold rDis
  rw [← v14_eq]
  rfl

/-- The source column the factors are gathered by. -/
theorem v25_eq (ei : Edges) : val_main_v25 (F := Ideal) ei = rCol (rSrc ei) := by
  rw [← v4_eq]
  rfl

/-- The destination column the factors are gathered by. -/
theorem v32_eq (ei : Edges) : val_main_v32 (F := Ideal) ei = rCol (rDst ei) := by
  rw [← v7_eq]
  rfl

/-- Each edge's weight. -/
theorem v34_eq (ei : Edges) :
    val_main_v34 (F := Ideal) ei = rNormAt (rCol (rSrc ei)) (rCol (rDst ei)) (rDis ei) := by
  rw [← v25_eq, ← v32_eq, ← v19_eq]
  rfl

/-- The source column the rows are gathered by. -/
theorem v40_eq (ei : Edges) : val_main_v40 (F := Ideal) ei = rCol (rSrc ei) := by
  rw [← v4_eq]
  rfl

/-- The destination column the weighted rows are scattered by. -/
theorem v51_eq (ei : Edges) : val_main_v51 (F := Ideal) ei = rCol (rDst ei) := by
  rw [← v7_eq]
  rfl

/-- The first layer before the maximum with zero. -/
theorem v55_eq (x : NodeMat) (ei : Edges) (W1 : Weights) (b1 : Bias) :
    val_main_v55 (F := Ideal) x ei W1 b1 = rCore (dot x W1) ei b1 := by
  unfold val_main_v55 val_main_v52 val_main_v54 val_main_v53 val_main_v44 val_main_v41 val_main_v43 val_main_v42
  rw [v51_eq, v40_eq, v34_eq, v0_eq]
  rfl

/-- The maximum with zero. -/
theorem v56_eq (x : NodeMat) (ei : Edges) (W1 : Weights) (b1 : Bias) :
    val_main_v56 (F := Ideal) x ei W1 b1 = relu (val_main_v55 (F := Ideal) x ei W1 b1) := rfl

/-! ## The second layer -/

/-- The first layer's result times the second weight matrix. -/
theorem v57_eq (x : NodeMat) (ei : Edges) (W1 : Weights) (b1 : Bias) (W2 : Weights) :
    val_main_v57 (F := Ideal) x ei W1 b1 W2 = dot (val_main_v56 (F := Ideal) x ei W1 b1) W2 := rfl

/-- The source words with the self-loops appended, as the second layer forms them again. -/
theorem v61_eq (ei : Edges) : val_main_v61 (F := Ideal) ei = rSrc ei := rfl

/-- The destination words with the self-loops appended, as the second layer forms them again. -/
theorem v64_eq (ei : Edges) : val_main_v64 (F := Ideal) ei = rDst ei := rfl

/-- The destination column the degree count scatters by. -/
theorem v71_eq (ei : Edges) : val_main_v71 (F := Ideal) ei = rCol (rDst ei) := by
  rw [← v64_eq]
  rfl

/-- The degree factor. -/
theorem v76_eq (ei : Edges) : val_main_v76 (F := Ideal) ei = rDis ei := by
  unfold rDis
  rw [← v71_eq]
  rfl

/-- The source column the factors are gathered by. -/
theorem v82_eq (ei : Edges) : val_main_v82 (F := Ideal) ei = rCol (rSrc ei) := by
  rw [← v61_eq]
  rfl

/-- The destination column the factors are gathered by. -/
theorem v89_eq (ei : Edges) : val_main_v89 (F := Ideal) ei = rCol (rDst ei) := by
  rw [← v64_eq]
  rfl

/-- Each edge's weight. -/
theorem v91_eq (ei : Edges) :
    val_main_v91 (F := Ideal) ei = rNormAt (rCol (rSrc ei)) (rCol (rDst ei)) (rDis ei) := by
  rw [← v82_eq, ← v89_eq, ← v76_eq]
  rfl

/-- The source column the rows are gathered by. -/
theorem v97_eq (ei : Edges) : val_main_v97 (F := Ideal) ei = rCol (rSrc ei) := by
  rw [← v61_eq]
  rfl

/-- The destination column the weighted rows are scattered by. -/
theorem v108_eq (ei : Edges) : val_main_v108 (F := Ideal) ei = rCol (rDst ei) := by
  rw [← v64_eq]
  rfl

/-- The second layer, from the product it starts with. -/
theorem v112_eq (x : NodeMat) (ei : Edges) (W1 : Weights) (b1 : Bias) (W2 : Weights) (b2 : Bias) :
    val_main_v112 (F := Ideal) x ei W1 b1 W2 b2 = rCore (val_main_v57 (F := Ideal) x ei W1 b1 W2) ei b2 := by
  unfold val_main_v112 val_main_v109 val_main_v111 val_main_v110 val_main_v101 val_main_v98 val_main_v100 val_main_v99
  rw [v108_eq, v97_eq, v91_eq]
  rfl

/-- The second program's value: a layer, the maximum with zero, a layer. -/
theorem ref_value (x : NodeMat) (ei : Edges) (W1 : Weights) (b1 : Bias) (W2 : Weights) (b2 : Bias) :
    Cert.ReferenceIdeal.Read.val_main_v112 (F := Ideal) x ei W1 b1 W2 b2
      = rCore (dot (relu (rCore (dot x W1) ei b1)) W2) ei b2 := by
  rw [v112_eq, v57_eq, v56_eq, v55_eq]

end Cert.Gcn
-- ==== Proof.lean ====
/-
  A two-layer graph convolution: a Pallas program against its jnp reference, equal at the ideal values.

  Both programs compute, twice, `out[i] = Σ over edges e into i of norm(e) · (x W)[src e] + b` over the edge list
  extended by one self-loop per node, with `norm(e) = dis[src e] · dis[dst e]` and `dis[i]` the reciprocal square root
  of node `i`'s degree (self-loop counted), with the maximum with zero between the layers.  The reference appends the
  self-loops to the edge arrays and weights every message.  The kernel program separates the weight into a factor on
  the gathered rows (fused into the matrix-product kernel: `pre = dis · (x W)`) and a factor on the aggregate (fused
  into the output kernel: `(agg + pre) · dis + b`), the self-loop's message being `pre` itself.  The two are equal
  because a node factor is a NONNEGATIVE REAL NUMBER (a positive degree's reciprocal square root), and multiplication
  by such a factor distributes over any sum of extended reals: no entry is asked to be finite, so the precondition is
  never opened.

  Modules: `Layer` states the two layers as functions; `IndexWords`, `DegreeFactor`, `Aggregate` prove them equal
  (`Bridge.core_eq`); `BlockValues`, `RegionValues`, `KernelRun`, `KernelValue`, `KernelForm` read the kernel program's
  result off its run (`Bridge.kernel_value`); `RefValue` reads the reference's generated value as two layers.
-/
import proofs.«121169_j9388798509588_2_alg».proof.Defs
import proofs.«121169_j9388798509588_2_alg».proof.Proof.Gen.Kernel
import proofs.«121169_j9388798509588_2_alg».proof.Proof.Gen.Kernel.Frame
import proofs.«121169_j9388798509588_2_alg».proof.Proof.Gen.KernelIdeal
import proofs.«121169_j9388798509588_2_alg».proof.Proof.Gen.KernelIdeal.Frame
import proofs.«121169_j9388798509588_2_alg».proof.Proof.Gen.ReferenceIdeal
import proofs.«121169_j9388798509588_2_alg».proof.Proof.Gen.ReferenceIdeal.Run
import proofs.«121169_j9388798509588_2_alg».proof.Proof.Gen.ReferenceIdeal.Read
import proofs.«121169_j9388798509588_2_alg».proof.Proof.Gen.Pre_finite_inputs
import proofs.«121169_j9388798509588_2_alg».proof.Proof.KernelRun
import proofs.«121169_j9388798509588_2_alg».proof.Proof.Bridge
import proofs.«121169_j9388798509588_2_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ
theorem frame_kernelIdeal : Cert.frame_KernelIdeal := fun m ρ _ => Cert.KernelIdeal.Gen.frame m ρ
/-- The reference is a host program: its frame is its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing: the idealization is the program's own text read at the ideal values. -/
theorem preserves : Cert.preserves_Kernel_KernelIdeal := trivial

/-- Both runs end with the result buffer at one function of the arguments: the kernel program's run leaves its layer
    applied twice (`kernel_value`), the reference's run its layer applied twice (`ref_value`), and the layers are
    equal (`core_eq`). -/
theorem algebraic : Cert.algebraic_KernelIdeal_ReferenceIdeal := by
  intro m ρ m' ρ' _ hagree
  refine ⟨fun c => Cert.KernelIdeal.Chain.result m c, ?_, ?_⟩
  · exact (θ_run Cert.KernelIdeal.defs _ _).mono
      (fun r h c => ⟨(h c).1.trans (Cert.KernelIdeal.Chain.W8_result m ρ c), (h c).2⟩)
      (Cert.KernelIdeal.Named.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v112_eq, (hagree c).1, (hagree c).2.1, (hagree c).2.2.1, (hagree c).2.2.2.1,
      (hagree c).2.2.2.2.1, (hagree c).2.2.2.2.2]
    refine (Cert.Gcn.ref_value _ _ _ _ _ _).trans ?_
    rw [← Cert.Gcn.core_eq, ← Cert.Gcn.core_eq]
    exact (Cert.Gcn.kernel_value m c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
